-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S4x2048x3072 : Shape := ⟨3, ![4, 2048, 3072]⟩
abbrev S1x512x1024 : Shape := ⟨3, ![1, 512, 1024]⟩
abbrev S1x512x3072 : Shape := ⟨3, ![1, 512, 3072]⟩
abbrev S512x1024 : Shape := ⟨2, ![512, 1024]⟩
abbrev S512x3072 : Shape := ⟨2, ![512, 3072]⟩
abbrev S1x3072 : Shape := ⟨2, ![1, 3072]⟩
abbrev S1x2048x1024 : Shape := ⟨3, ![1, 2048, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S1024x3072, .bf16⟩
  | .hbm, ⟨9, _⟩ => ⟨S3072, .f32⟩
  | .hbm, ⟨10, _⟩ => ⟨S4x2048x3072, .bf16⟩
  | .hbm, ⟨11, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S3072, .f32⟩
  | .local _ .vmem, ⟨4, _⟩ => ⟨S1x512x3072, .bf16⟩
  | .local _ .vmem, ⟨5, _⟩ => ⟨S1x512x3072, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x512x1024, .f32⟩
  | .local _ .vmem, ⟨13, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  inb_S1x512x3072_S1x512x3072_0_0_0 : ∀ a, (![0, 0, 0] : Fin 3 → Nat) a + S1x512x3072.size a ≤ S1x512x3072.size a
  h_S1x512x3072 : 0 < S1x512x3072.numel
  shapeCasts_S1x512x3072_S512x3072 : S1x512x3072.ShapeCasts S512x3072
  shapeCasts_S512x3072_S1x512x3072 : S512x3072.ShapeCasts S1x512x3072
  packedbf16_S1x512x3072_S1x512x3072_0_0_0 : (Rect.unit (s := S1x512x3072) ![0, 0, 0] S1x512x3072.size inb_S1x512x3072_S1x512x3072_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x3072.size a ≤ S4x2048x3072.size a
  hwx0_3 : ∀ i : grid0.Coords, EltTy.bits .bf16 = 32 ∨ (Rect.block (s := S4x2048x3072) S1x512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x3072.size a
  hwx1_0 : ∀ i : grid1.Coords, EltTy.bits .bf16 = 32 ∨ (Rect.block (s := S4x2048x3072) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x3072.size a
  hwx1_1 : ∀ i : grid1.Coords, EltTy.bits .bf16 = 32 ∨ (Rect.block (s := S4x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x3072.size a
  hwx1_2 : ∀ i : grid1.Coords, EltTy.bits .bf16 = 32 ∨ (Rect.block (s := S4x2048x3072) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.FrameProj.lean ====
/-
  The projection call's run at one grid point, and what the pipeline keeps of it.

  The projection call walks a 4 × 4 grid; at point (b, s) it stages rows 512·s … 512·s + 511 of batch entry b of the
  activations, the whole concatenated weight matrix and the whole concatenated bias, and writes back the matching
  512 × 3072 block of the projected array. Its body reads the three staged blocks whole and overwrites the output's
  staging buffer whole with ONE pure function of them. So after the body the output buffer holds that function of the
  three input blocks whatever it held before, and each input buffer holds its block whether or not the pipeline fetched
  it at this point (the weights and the bias are fetched once: their block index never moves).
  Everything here is stated at the buffer contents V the call is entered from, at any float instance.
-/
import proofs.«179508_j88218628260008_2_alg».proof.Proof.Gen.KernelIdeal.Launch
import proofs.«179508_j88218628260008_2_alg».proof.Proof.Gen.KernelIdeal.Skeleton
import proofs.«179508_j88218628260008_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix at every point, though it is fetched once. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias's staging buffer holds the whole vector at every point, though it is fetched once. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_x : Rect S1x512x1024 := Rect.unit (s := S1x512x1024) ![0, 0, 0] S1x512x1024.size inb_S1x512x1024_S1x512x1024_0_0_0
abbrev r0_w : Rect S1024x3072 := Rect.unit (s := S1024x3072) ![0, 0] S1024x3072.size inb_S1024x3072_S1024x3072_0_0
abbrev r0_b : Rect S3072 := Rect.unit (s := S3072) ![0] S3072.size inb_S3072_S3072_0
abbrev r0_o : Rect S1x512x3072 := Rect.unit (s := S1x512x3072) ![0, 0, 0] S1x512x3072.size inb_S1x512x3072_S1x512x3072_0_0_0

/-- The output's staging buffer after the body: its one store, of the body's arithmetic on the three input blocks. -/
def out0_3 (x0 : Vec F S1x512x1024 .f32) (x1 : Vec F S1024x3072 .bf16) (x2 : Vec F S3072 .f32) : Vec F S1x512x3072 .bf16 :=
  View.canon [⟨r0_o, k0_pay1 (View.ld x0 r0_x) (View.ld x1 r0_w) (View.ld x2 r0_b)⟩]

/-- The one store covers the buffer. -/
theorem cover0_3 (p0 : Vec F S1x512x3072 .bf16) (y : S1x512x3072.Idx) :
    ∃ pc ∈ ([⟨r0_o, p0⟩] : List (View.Piece (Elt F) S1x512x3072 .bf16)), y ∈ pc.1.set :=
  View.cover_of_tiled [⟨r0_o, p0⟩] S1x512x3072.size (by rfl) y

set_option maxHeartbeats 1000000 in
/-- The body on whole staging memrefs, the inputs' at read contents x0 x1 x2 and the output's at anything, runs to the
    continuation with the inputs' as they were and the output's at `out0_3` of them. -/
theorem sound_kernel0 (c : Dev nD) (E : Set ℕ) (i : grid0.Coords)
    (arg2 : Memref sig .tc .vmem S1x512x1024 .f32) (harg2 : arg2.IsWhole) (arg3 : Memref sig .tc .vmem S1024x3072 .bf16) (harg3 : arg3.IsWhole)
    (arg4 : Memref sig .tc .vmem S3072 .f32) (harg4 : arg4.IsWhole) (arg5 : Memref sig .tc .vmem S1x512x3072 .bf16) (harg5 : arg5.IsWhole)
    (x0 : Vec F S1x512x1024 .f32) (x1 : Vec F S1024x3072 .bf16) (x2 : Vec F S3072 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
              ∗ owns (c : Thread nD τ) arg5 fullShare (out0_3 x0 x1 x2)) -∗ K ⟨⟩))
      ⊢ wp frame (wpE (defs₀ (F := F)) Variants.none c none) E (cc0__proj_kernel i arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The projection call's proof data on core c: the arrays as the call finds them; after the body at point t each
    input's buffer at its block and the output's at `out0_3` of the three input blocks; the invariant the untouched
    scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameAttn.lean ====
/-
  The attention call's run at one grid point, and what the pipeline keeps of it.

  The attention call walks a 4 × 4 grid over the projected array (batch entry × position × 3072 features: the query, key
  and value features side by side). At point (b, i) it stages three blocks of that ONE array — query rows 512·i … 512·i + 511
  of batch entry b (features 0 … 1023), all 2048 key rows of b (features 1024 … 2047) and all 2048 value rows of b (features
  2048 … 3071) — and writes back the matching 512 × 1024 block of the result. Its body reads the three staged blocks whole
  and overwrites the output's staging buffer whole with ONE pure function of them. The key and value blocks are fetched
  when the batch entry changes; their buffers hold the batch entry's block at every point all the same.
  Because three windows read one array, the proof data holds that array at three shares that make up the whole.
  Everything here is stated at the buffer contents V the call is entered from, at any float instance.
-/
import proofs.«179508_j88218628260008_2_alg».proof.Proof.Gen.KernelIdeal.Launch
import proofs.«179508_j88218628260008_2_alg».proof.Proof.Gen.KernelIdeal.Skeleton
import proofs.«179508_j88218628260008_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query rows' staging buffer holds the point's block, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key rows' staging buffer holds the batch entry's block at every point, though it is fetched once per entry. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value rows' staging buffer likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_q : Rect S1x512x1024 := Rect.unit (s := S1x512x1024) ![0, 0, 0] S1x512x1024.size inb_S1x512x1024_S1x512x1024_0_0_0
abbrev r1_kv : Rect S1x2048x1024 := Rect.unit (s := S1x2048x1024) ![0, 0, 0] S1x2048x1024.size inb_S1x2048x1024_S1x2048x1024_0_0_0

/-- The output's staging buffer after the body: its one store, of the body's arithmetic on the three input blocks. -/
def out1_3 (x0 : Vec F S1x512x1024 .bf16) (x1 x2 : Vec F S1x2048x1024 .bf16) : Vec F S1x512x1024 .f32 :=
  View.canon [⟨r1_q, k1_pay1 (View.ld x0 r1_q) (View.ld x1 r1_kv) (View.ld x2 r1_kv)⟩]

/-- The one store covers the buffer. -/
theorem cover1_3 (p0 : Vec F S1x512x1024 .f32) (y : S1x512x1024.Idx) :
    ∃ pc ∈ ([⟨r1_q, p0⟩] : List (View.Piece (Elt F) S1x512x1024 .f32)), y ∈ pc.1.set :=
  View.cover_of_tiled [⟨r1_q, p0⟩] S1x512x1024.size (by rfl) y

set_option maxHeartbeats 1000000 in
/-- The body on whole staging memrefs, the inputs' at read contents x0 x1 x2 and the output's at anything, runs to the
    continuation with the inputs' as they were and the output's at `out1_3` of them. -/
theorem sound_kernel1 (c : Dev nD) (E : Set ℕ) (i : grid1.Coords)
    (arg2 : Memref sig .tc .vmem S1x512x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x512x1024 .f32) (harg5 : arg5.IsWhole)
    (x0 : Vec F S1x512x1024 .bf16) (x1 x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
              ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The attention call's proof data on core c: the arrays as the call finds them; after the body at point t each input's
    buffer at its block and the output's at `out1_3` of the three input blocks; the invariant the untouched scoped rest and
    the generator register; nothing owed. The three input windows read ONE array: each holds it at its own share — a
    quarter, a quarter and a half of the whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left.left
    | ⟨1, _⟩ => fullShare.left.right
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameRun.lean ====
/-
  The whole program's run: from the launch memory through the host stretch and the two calls to the return.

  Between two items of the program a core's unscoped buffers are all held at known contents: at launch the memory
  itself; after the host stretch (the two concatenations and the format change) what those operations compute of it;
  after the projection call the same with the projected array at what the call's write-backs leave; after the attention
  call the same with the result array at what that call's write-backs leave. Each call takes its arrays out of that
  state at entry and puts them back at exit. The attention call hands ONE array to three of its windows, so at entry
  the array's full share is split among them and at exit the three shares — all at the contents the array entered
  with, no window writes it — are joined again.
  The run's conclusion reads every unscoped buffer of the final memory at the last of those contents: the argument
  arrays come out as launched, the result array as the attention call left it. Stated at any float instance.
-/
import proofs.«179508_j88218628260008_2_alg».proof.Proof.FrameProj
import proofs.«179508_j88218628260008_2_alg».proof.Proof.FrameAttn

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## One array for three windows: its share split at entry and joined at exit -/

section Share

variable (V : (c : Dev nD) → (b : Ref sig .tc) → Buf (Elt F) ((c : Thread nD τ).loc b))

/-- The attention call's windows stand on two buffers: the projected array and the result. -/
theorem arrs1 : Finset.univ.image (Pipeline.arrRef spec1) = ({main_v3, main_v4} : Finset (Ref sig .tc)) := by decide

/-- Those two buffers held whole, one by one. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v3) ↦{fullShare} X main_v3) ∗ (((c : Thread nD τ).loc main_v4) ↦{fullShare} X main_v4)) := by
  unfold Pipeline.arrBufs
  rw [arrs1, bigSep_insert (by decide), bigSep_singleton]
  rfl

theorem set1 (c : Dev nD) (w : Fin cfg1.W) : (cfg1.win w).arr.view.set = Finset.univ := (arr_whole1 w).set_eq_univ

theorem share1_0 (c : Dev nD) : (dat1 V c).share 0 = fullShare.left.left := rfl
theorem share1_1 (c : Dev nD) : (dat1 V c).share 1 = fullShare.left.right := rfl
theorem share1_2 (c : Dev nD) : (dat1 V c).share 2 = fullShare.right := rfl
theorem share1_3 (c : Dev nD) : (dat1 V c).share 3 = fullShare := rfl

/-- The attention call's arrays, window by window: the projected array at a quarter, a quarter and a half, the result whole. -/
theorem arrays1_eq (c : Dev nD) (F' : (w : Fin cfg1.W) → Buf (Elt F) ((cfg1.win w).arr.view.loc (c : Thread nD τ))) :
    (dat1 V c).arrays F'
      = iprop((((c : Thread nD τ).loc main_v3) ↦{fullShare.left.left} F' 0) ∗ (((c : Thread nD τ).loc main_v3) ↦{fullShare.left.right} F' 1)
          ∗ (((c : Thread nD τ).loc main_v3) ↦{fullShare.right} F' 2) ∗ (((c : Thread nD τ).loc main_v4) ↦{fullShare} F' 3)) := by
  unfold Dat.arrays
  rw [bigSep_W1, set1 c 0, set1 c 3, share1_0, share1_1, share1_2, share1_3]

/-- ENTRY: the two buffers held whole make the call's arrays — the projected array's full share split in two, and one half
    in two again, for the three windows that read it. -/
theorem arrays1_of_bufs (c : Dev nD) (X : (b : Ref sig .tc) → Buf (Elt F) ((c : Thread nD τ).loc b))
    (F' : (w : Fin cfg1.W) → Buf (Elt F) ((cfg1.win w).arr.view.loc (c : Thread nD τ)))
    (h0 : F' 0 = X main_v3) (h1 : F' 1 = X main_v3) (h2 : F' 2 = X main_v3) (h3 : F' 3 = X main_v4) :
    (Pipeline.arrBufs (Ix := Unit) (Name := ℕ) (U := UR sig nD τ) (Lvl := ℕ) spec1 c X : sProp 𝕄) ⊢ (dat1 V c).arrays F' := by
  rw [arrBufs1_eq, arrays1_eq, h0, h1, h2, h3]
  have hs : (((c : Thread nD τ).loc main_v3) ↦{fullShare} X main_v3 : sProp 𝕄) ⊢ (iprop((((c : Thread nD τ).loc main_v3) ↦{fullShare.left} X main_v3) ∗ (((c : Thread nD τ).loc main_v3) ↦{fullShare.right} X main_v3)) : sProp 𝕄) := (pointsTo_share (PosShare.mem_left_op_right fullShare)).1
  have hs' : (((c : Thread nD τ).loc main_v3) ↦{fullShare.left} X main_v3 : sProp 𝕄) ⊢ (iprop((((c : Thread nD τ).loc main_v3) ↦{fullShare.left.left} X main_v3) ∗ (((c : Thread nD τ).loc main_v3) ↦{fullShare.left.right} X main_v3)) : sProp 𝕄) := (pointsTo_share (PosShare.mem_left_op_right fullShare.left)).1
  iintro ⟨H3, H4⟩
  ihave H := hs $$ H3
  icases H with ⟨HL, HR⟩
  ihave H' := hs' $$ HL
  icases H' with ⟨HLL, HLR⟩
  isplitl [HLL]; · iexact HLL
  isplitl [HLR]; · iexact HLR
  isplitl [HR]; · iexact HR
  iexact H4

/-- EXIT: the call's arrays, the three shares of the projected array at one contents, are the two buffers held whole. -/
theorem bufs_of_arrays1 (c : Dev nD) (X : (b : Ref sig .tc) → Buf (Elt F) ((c : Thread nD τ).loc b))
    (F' : (w : Fin cfg1.W) → Buf (Elt F) ((cfg1.win w).arr.view.loc (c : Thread nD τ)))
    (h0 : F' 0 = X main_v3) (h1 : F' 1 = X main_v3) (h2 : F' 2 = X main_v3) (h3 : F' 3 = X main_v4) :
    (dat1 V c).arrays F' ⊢ (Pipeline.arrBufs (Ix := Unit) (Name := ℕ) (U := UR sig nD τ) (Lvl := ℕ) spec1 c X : sProp 𝕄) := by
  rw [arrBufs1_eq, arrays1_eq, h0, h1, h2, h3]
  have hj : (iprop((((c : Thread nD τ).loc main_v3) ↦{fullShare.left} X main_v3) ∗ (((c : Thread nD τ).loc main_v3) ↦{fullShare.right} X main_v3)) : sProp 𝕄) ⊢ (((c : Thread nD τ).loc main_v3) ↦{fullShare} X main_v3 : sProp 𝕄) := (pointsTo_share (PosShare.mem_left_op_right fullShare)).2
  have hj' : (iprop((((c : Thread nD τ).loc main_v3) ↦{fullShare.left.left} X main_v3) ∗ (((c : Thread nD τ).loc main_v3) ↦{fullShare.left.right} X main_v3)) : sProp 𝕄) ⊢ (((c : Thread nD τ).loc main_v3) ↦{fullShare.left} X main_v3 : sProp 𝕄) := (pointsTo_share (PosShare.mem_left_op_right fullShare.left)).2
  iintro ⟨HLL, HLR, HR, H4⟩
  isplitl [HLL HLR HR]
  · iapply hj
    isplitl [HLL HLR]
    · iapply hj'
      isplitl [HLL]; · iexact HLL
      iexact HLR
    iexact HR
  iexact H4

end Share

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host stretch (the projection call's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the attention call's entry: no host operation lies between the calls). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention call's exit: the result array at what the pipeline leaves, every other buffer as entered (the
    projected array is only read). -/
def W3 (c : Dev nD) : Valuation τ sig (Elt F) :=
  Function.update (W2 m ρ c) (Proc.devRef .tc main_v4) ((dat1 (V2 m ρ) c).arrAt 3 cfg1.N)
/-- The same read at the TensorCore's references. -/
abbrev V3 : (c : Dev nD) → (b : Ref sig .tc) → Buf (Elt F) ((c : Thread nD τ).loc b) := fun c b => W3 m ρ c b
theorem W3_result (c : Dev nD) : W3 m ρ c (Proc.devRef .tc main_v4) = (dat1 (V2 m ρ) c).arrAt 3 cfg1.N := by
  unfold W3; exact Function.update_self ..
theorem W3_of_ne (c : Dev nD) (b : Ref sig .tc) (hb : b ≠ main_v4) :
    W3 m ρ c (Proc.devRef .tc b) = W2 m ρ c (Proc.devRef .tc b) := by
  unfold W3; exact Function.update_of_ne (StableHlo.devRef_ne_of_ne hb) ..

/-! ### The arguments end as launched -/

/-- The activations end as launched: the host stretch does not write them and the projection call only reads them. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

/-- Argument 1 ends as launched: no host operation writes it and no call stages it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

/-- Argument 2 ends as launched: no host operation writes it and no call stages it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

/-- Argument 3 ends as launched: no host operation writes it and no call stages it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-- Argument 4 ends as launched: no host operation writes it and no call stages it. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

/-- Argument 5 ends as launched: no host operation writes it and no call stages it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

/-- Argument 6 ends as launched: no host operation writes it and no call stages it. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl

/-! ## The proof data family and the thread state -/

/-- No call has a prefetched table. -/
abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item of the run, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W3 m ρ c) ∗ ∃ r, prngReg c r)

/-! ## The calls as items of the run -/

set_option backward.isDefEq.respectTransparency.types false in
/-- The projection call: entered from every unscoped buffer at the contents after the host stretch, left at those with
    the projected array written. Its arrays are distinct buffers, taken out whole and put back whole. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The three input windows of the attention call end holding the projected array as they found it. -/
theorem arrAt1_in (c : Dev nD) (w : Fin cfg1.W) (hw : (cfg1.win w).isOut = false) :
    (dat1 (V2 m ρ) c).arrAt w cfg1.N = V2 m ρ c (Pipeline.arrRef spec1 w) :=
  ((dat1 (V2 m ρ) c).arrAt_in w hw _).trans (A_eq1 (V2 m ρ) c w)

/-- Off the attention call's two buffers the last contents are the ones it was entered with. -/
theorem hrest1 (c : Dev nD) : ∀ b, b ∉ Finset.univ.image (Pipeline.arrRef spec1) → V3 m ρ c b = V2 m ρ c b :=
  fun b hb => W3_of_ne m ρ c b fun e => hb (by rw [arrs1, e]; decide)

set_option backward.isDefEq.respectTransparency.types false in
/-- The attention call: entered from every unscoped buffer at the contents the projection call left, left at those with
    the result array written. Three of its windows read the projected array: its share is split among them at entry
    and joined at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0) ∗ Pipeline.unscopedRest spec1 c (V2 m ρ c)) := by
      rw [Pipeline.unscopedBufs_split₀ (Pipeline.pin (pcfgs (F := F)) adm) 1 winFacts₀1.arr_unscoped c (V2 m ρ c)]
      exact sep_mono (arrays1_of_bufs (V2 m ρ) c (V2 m ρ c) _ rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c))
        ⊢ (unscopedBufs c (V3 m ρ c) : sProp 𝕄) := by
      rw [Pipeline.unscopedBufs_split₀ (Pipeline.pin (pcfgs (F := F)) adm) 1 winFacts₀1.arr_unscoped c (V3 m ρ c)]
      refine sep_mono (bufs_of_arrays1 (V2 m ρ) c (V3 m ρ c) _
        ((arrAt1_in m ρ c 0 rfl).trans (W3_of_ne m ρ c main_v3 (by decide)).symm)
        ((arrAt1_in m ρ c 1 rfl).trans (W3_of_ne m ρ c main_v3 (by decide)).symm)
        ((arrAt1_in m ρ c 2 rfl).trans (W3_of_ne m ρ c main_v3 (by decide)).symm)
        (W3_result m ρ c).symm) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's three items in order: the host stretch, the projection call, the attention call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program IS the run of its items. -/
theorem main_run (c : Dev nD) : main (F := F) c = Pipeline.Seg.run (segs m ρ) := (main_chain c).trans (by chain_rfl)

set_option backward.isDefEq.respectTransparency.types false in
/-- THE RUN, at any float instance: from any memory with zero counters, every weakly fair execution of the program on
    the TensorCores terminates, nothing faulting, and every final memory holds every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## What the claims cite -/

/-- THE FRAME: every weakly fair execution terminates, nothing faulting, and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c)⟩) (run_all m ρ)

/-- THE RESULT: moreover the result array ends at what the attention call's write-backs leave, entered from what the
    projection call's write-backs left. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v4 (by decide))).trans (W3_result m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c)⟩) (run_all m ρ)

end Cert.KernelIdeal.Hand

end
-- ==== Proof.KFrameProj.lean ====
/-
  The projection call's run at one grid point, and what the pipeline keeps of it.

  The projection call walks a 4 × 4 grid; at point (b, s) it stages rows 512·s … 512·s + 511 of batch entry b of the
  activations, the whole concatenated weight matrix and the whole concatenated bias, and writes back the matching
  512 × 3072 block of the projected array. Its body reads the three staged blocks whole and overwrites the output's
  staging buffer whole with ONE pure function of them. So after the body the output buffer holds that function of the
  three input blocks whatever it held before, and each input buffer holds its block whether or not the pipeline fetched
  it at this point (the weights and the bias are fetched once: their block index never moves).
  Everything here is stated at the buffer contents V the call is entered from, at any float instance.
-/
import proofs.«179508_j88218628260008_2_alg».proof.Proof.Gen.Kernel.Launch
import proofs.«179508_j88218628260008_2_alg».proof.Proof.Gen.Kernel.Skeleton
import proofs.«179508_j88218628260008_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix at every point, though it is fetched once. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias's staging buffer holds the whole vector at every point, though it is fetched once. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_x : Rect S1x512x1024 := Rect.unit (s := S1x512x1024) ![0, 0, 0] S1x512x1024.size inb_S1x512x1024_S1x512x1024_0_0_0
abbrev r0_w : Rect S1024x3072 := Rect.unit (s := S1024x3072) ![0, 0] S1024x3072.size inb_S1024x3072_S1024x3072_0_0
abbrev r0_b : Rect S3072 := Rect.unit (s := S3072) ![0] S3072.size inb_S3072_S3072_0
abbrev r0_o : Rect S1x512x3072 := Rect.unit (s := S1x512x3072) ![0, 0, 0] S1x512x3072.size inb_S1x512x3072_S1x512x3072_0_0_0

/-- The output's staging buffer after the body: its one store, of the body's arithmetic on the three input blocks. -/
def out0_3 (x0 : Vec F S1x512x1024 .f32) (x1 : Vec F S1024x3072 .bf16) (x2 : Vec F S3072 .f32) : Vec F S1x512x3072 .bf16 :=
  View.canon [⟨r0_o, k0_pay1 (View.ld x0 r0_x) (View.ld x1 r0_w) (View.ld x2 r0_b)⟩]

/-- The one store covers the buffer. -/
theorem cover0_3 (p0 : Vec F S1x512x3072 .bf16) (y : S1x512x3072.Idx) :
    ∃ pc ∈ ([⟨r0_o, p0⟩] : List (View.Piece (Elt F) S1x512x3072 .bf16)), y ∈ pc.1.set :=
  View.cover_of_tiled [⟨r0_o, p0⟩] S1x512x3072.size (by rfl) y

set_option maxHeartbeats 1000000 in
/-- The body on whole staging memrefs, the inputs' at read contents x0 x1 x2 and the output's at anything, runs to the
    continuation with the inputs' as they were and the output's at `out0_3` of them. -/
theorem sound_kernel0 (c : Dev nD) (E : Set ℕ) (i : grid0.Coords)
    (arg2 : Memref sig .tc .vmem S1x512x1024 .f32) (harg2 : arg2.IsWhole) (arg3 : Memref sig .tc .vmem S1024x3072 .bf16) (harg3 : arg3.IsWhole)
    (arg4 : Memref sig .tc .vmem S3072 .f32) (harg4 : arg4.IsWhole) (arg5 : Memref sig .tc .vmem S1x512x3072 .bf16) (harg5 : arg5.IsWhole)
    (x0 : Vec F S1x512x1024 .f32) (x1 : Vec F S1024x3072 .bf16) (x2 : Vec F S3072 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
              ∗ owns (c : Thread nD τ) arg5 fullShare (out0_3 x0 x1 x2)) -∗ K ⟨⟩))
      ⊢ wp frame (wpE (defs₀ (F := F)) Variants.none c none) E (cc0__proj_kernel i arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The projection call's proof data on core c: the arrays as the call finds them; after the body at point t each
    input's buffer at its block and the output's at `out0_3` of the three input blocks; the invariant the untouched
    scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KFrameAttn.lean ====
/-
  The attention call's run at one grid point, and what the pipeline keeps of it.

  The attention call walks a 4 × 4 grid over the projected array (batch entry × position × 3072 features: the query, key
  and value features side by side). At point (b, i) it stages three blocks of that ONE array — query rows 512·i … 512·i + 511
  of batch entry b (features 0 … 1023), all 2048 key rows of b (features 1024 … 2047) and all 2048 value rows of b (features
  2048 … 3071) — and writes back the matching 512 × 1024 block of the result. Its body reads the three staged blocks whole
  and overwrites the output's staging buffer whole with ONE pure function of them. The key and value blocks are fetched
  when the batch entry changes; their buffers hold the batch entry's block at every point all the same.
  Because three windows read one array, the proof data holds that array at three shares that make up the whole.
  Everything here is stated at the buffer contents V the call is entered from, at any float instance.
-/
import proofs.«179508_j88218628260008_2_alg».proof.Proof.Gen.Kernel.Launch
import proofs.«179508_j88218628260008_2_alg».proof.Proof.Gen.Kernel.Skeleton
import proofs.«179508_j88218628260008_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query rows' staging buffer holds the point's block, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key rows' staging buffer holds the batch entry's block at every point, though it is fetched once per entry. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value rows' staging buffer likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_q : Rect S1x512x1024 := Rect.unit (s := S1x512x1024) ![0, 0, 0] S1x512x1024.size inb_S1x512x1024_S1x512x1024_0_0_0
abbrev r1_kv : Rect S1x2048x1024 := Rect.unit (s := S1x2048x1024) ![0, 0, 0] S1x2048x1024.size inb_S1x2048x1024_S1x2048x1024_0_0_0

/-- The output's staging buffer after the body: its one store, of the body's arithmetic on the three input blocks. -/
def out1_3 (x0 : Vec F S1x512x1024 .bf16) (x1 x2 : Vec F S1x2048x1024 .bf16) : Vec F S1x512x1024 .f32 :=
  View.canon [⟨r1_q, k1_pay1 (View.ld x0 r1_q) (View.ld x1 r1_kv) (View.ld x2 r1_kv)⟩]

/-- The one store covers the buffer. -/
theorem cover1_3 (p0 : Vec F S1x512x1024 .f32) (y : S1x512x1024.Idx) :
    ∃ pc ∈ ([⟨r1_q, p0⟩] : List (View.Piece (Elt F) S1x512x1024 .f32)), y ∈ pc.1.set :=
  View.cover_of_tiled [⟨r1_q, p0⟩] S1x512x1024.size (by rfl) y

set_option maxHeartbeats 1000000 in
/-- The body on whole staging memrefs, the inputs' at read contents x0 x1 x2 and the output's at anything, runs to the
    continuation with the inputs' as they were and the output's at `out1_3` of them. -/
theorem sound_kernel1 (c : Dev nD) (E : Set ℕ) (i : grid1.Coords)
    (arg2 : Memref sig .tc .vmem S1x512x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x512x1024 .f32) (harg5 : arg5.IsWhole)
    (x0 : Vec F S1x512x1024 .bf16) (x1 x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
              ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The attention call's proof data on core c: the arrays as the call finds them; after the body at point t each input's
    buffer at its block and the output's at `out1_3` of the three input blocks; the invariant the untouched scoped rest and
    the generator register; nothing owed. The three input windows read ONE array: each holds it at its own share — a
    quarter, a quarter and a half of the whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left.left
    | ⟨1, _⟩ => fullShare.left.right
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KFrameRun.lean ====
/-
  The whole program's run: from the launch memory through the host stretch and the two calls to the return.

  Between two items of the program a core's unscoped buffers are all held at known contents: at launch the memory
  itself; after the host stretch (the two concatenations and the format change) what those operations compute of it;
  after the projection call the same with the projected array at what the call's write-backs leave; after the attention
  call the same with the result array at what that call's write-backs leave. Each call takes its arrays out of that
  state at entry and puts them back at exit. The attention call hands ONE array to three of its windows, so at entry
  the array's full share is split among them and at exit the three shares — all at the contents the array entered
  with, no window writes it — are joined again.
  The run's conclusion reads every unscoped buffer of the final memory at the last of those contents: the argument
  arrays come out as launched, the result array as the attention call left it. Stated at any float instance.
-/
import proofs.«179508_j88218628260008_2_alg».proof.Proof.KFrameProj
import proofs.«179508_j88218628260008_2_alg».proof.Proof.KFrameAttn

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## One array for three windows: its share split at entry and joined at exit -/

section Share

variable (V : (c : Dev nD) → (b : Ref sig .tc) → Buf (Elt F) ((c : Thread nD τ).loc b))

/-- The attention call's windows stand on two buffers: the projected array and the result. -/
theorem arrs1 : Finset.univ.image (Pipeline.arrRef spec1) = ({main_v3, main_v4} : Finset (Ref sig .tc)) := by decide

/-- Those two buffers held whole, one by one. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v3) ↦{fullShare} X main_v3) ∗ (((c : Thread nD τ).loc main_v4) ↦{fullShare} X main_v4)) := by
  unfold Pipeline.arrBufs
  rw [arrs1, bigSep_insert (by decide), bigSep_singleton]
  rfl

theorem set1 (c : Dev nD) (w : Fin cfg1.W) : (cfg1.win w).arr.view.set = Finset.univ := (arr_whole1 w).set_eq_univ

theorem share1_0 (c : Dev nD) : (dat1 V c).share 0 = fullShare.left.left := rfl
theorem share1_1 (c : Dev nD) : (dat1 V c).share 1 = fullShare.left.right := rfl
theorem share1_2 (c : Dev nD) : (dat1 V c).share 2 = fullShare.right := rfl
theorem share1_3 (c : Dev nD) : (dat1 V c).share 3 = fullShare := rfl

/-- The attention call's arrays, window by window: the projected array at a quarter, a quarter and a half, the result whole. -/
theorem arrays1_eq (c : Dev nD) (F' : (w : Fin cfg1.W) → Buf (Elt F) ((cfg1.win w).arr.view.loc (c : Thread nD τ))) :
    (dat1 V c).arrays F'
      = iprop((((c : Thread nD τ).loc main_v3) ↦{fullShare.left.left} F' 0) ∗ (((c : Thread nD τ).loc main_v3) ↦{fullShare.left.right} F' 1)
          ∗ (((c : Thread nD τ).loc main_v3) ↦{fullShare.right} F' 2) ∗ (((c : Thread nD τ).loc main_v4) ↦{fullShare} F' 3)) := by
  unfold Dat.arrays
  rw [bigSep_W1, set1 c 0, set1 c 3, share1_0, share1_1, share1_2, share1_3]

/-- ENTRY: the two buffers held whole make the call's arrays — the projected array's full share split in two, and one half
    in two again, for the three windows that read it. -/
theorem arrays1_of_bufs (c : Dev nD) (X : (b : Ref sig .tc) → Buf (Elt F) ((c : Thread nD τ).loc b))
    (F' : (w : Fin cfg1.W) → Buf (Elt F) ((cfg1.win w).arr.view.loc (c : Thread nD τ)))
    (h0 : F' 0 = X main_v3) (h1 : F' 1 = X main_v3) (h2 : F' 2 = X main_v3) (h3 : F' 3 = X main_v4) :
    (Pipeline.arrBufs (Ix := Unit) (Name := ℕ) (U := UR sig nD τ) (Lvl := ℕ) spec1 c X : sProp 𝕄) ⊢ (dat1 V c).arrays F' := by
  rw [arrBufs1_eq, arrays1_eq, h0, h1, h2, h3]
  have hs : (((c : Thread nD τ).loc main_v3) ↦{fullShare} X main_v3 : sProp 𝕄) ⊢ (iprop((((c : Thread nD τ).loc main_v3) ↦{fullShare.left} X main_v3) ∗ (((c : Thread nD τ).loc main_v3) ↦{fullShare.right} X main_v3)) : sProp 𝕄) := (pointsTo_share (PosShare.mem_left_op_right fullShare)).1
  have hs' : (((c : Thread nD τ).loc main_v3) ↦{fullShare.left} X main_v3 : sProp 𝕄) ⊢ (iprop((((c : Thread nD τ).loc main_v3) ↦{fullShare.left.left} X main_v3) ∗ (((c : Thread nD τ).loc main_v3) ↦{fullShare.left.right} X main_v3)) : sProp 𝕄) := (pointsTo_share (PosShare.mem_left_op_right fullShare.left)).1
  iintro ⟨H3, H4⟩
  ihave H := hs $$ H3
  icases H with ⟨HL, HR⟩
  ihave H' := hs' $$ HL
  icases H' with ⟨HLL, HLR⟩
  isplitl [HLL]; · iexact HLL
  isplitl [HLR]; · iexact HLR
  isplitl [HR]; · iexact HR
  iexact H4

/-- EXIT: the call's arrays, the three shares of the projected array at one contents, are the two buffers held whole. -/
theorem bufs_of_arrays1 (c : Dev nD) (X : (b : Ref sig .tc) → Buf (Elt F) ((c : Thread nD τ).loc b))
    (F' : (w : Fin cfg1.W) → Buf (Elt F) ((cfg1.win w).arr.view.loc (c : Thread nD τ)))
    (h0 : F' 0 = X main_v3) (h1 : F' 1 = X main_v3) (h2 : F' 2 = X main_v3) (h3 : F' 3 = X main_v4) :
    (dat1 V c).arrays F' ⊢ (Pipeline.arrBufs (Ix := Unit) (Name := ℕ) (U := UR sig nD τ) (Lvl := ℕ) spec1 c X : sProp 𝕄) := by
  rw [arrBufs1_eq, arrays1_eq, h0, h1, h2, h3]
  have hj : (iprop((((c : Thread nD τ).loc main_v3) ↦{fullShare.left} X main_v3) ∗ (((c : Thread nD τ).loc main_v3) ↦{fullShare.right} X main_v3)) : sProp 𝕄) ⊢ (((c : Thread nD τ).loc main_v3) ↦{fullShare} X main_v3 : sProp 𝕄) := (pointsTo_share (PosShare.mem_left_op_right fullShare)).2
  have hj' : (iprop((((c : Thread nD τ).loc main_v3) ↦{fullShare.left.left} X main_v3) ∗ (((c : Thread nD τ).loc main_v3) ↦{fullShare.left.right} X main_v3)) : sProp 𝕄) ⊢ (((c : Thread nD τ).loc main_v3) ↦{fullShare.left} X main_v3 : sProp 𝕄) := (pointsTo_share (PosShare.mem_left_op_right fullShare.left)).2
  iintro ⟨HLL, HLR, HR, H4⟩
  isplitl [HLL HLR HR]
  · iapply hj
    isplitl [HLL HLR]
    · iapply hj'
      isplitl [HLL]; · iexact HLL
      iexact HLR
    iexact HR
  iexact H4

end Share

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host stretch (the projection call's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the attention call's entry: no host operation lies between the calls). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention call's exit: the result array at what the pipeline leaves, every other buffer as entered (the
    projected array is only read). -/
def W3 (c : Dev nD) : Valuation τ sig (Elt F) :=
  Function.update (W2 m ρ c) (Proc.devRef .tc main_v4) ((dat1 (V2 m ρ) c).arrAt 3 cfg1.N)
/-- The same read at the TensorCore's references. -/
abbrev V3 : (c : Dev nD) → (b : Ref sig .tc) → Buf (Elt F) ((c : Thread nD τ).loc b) := fun c b => W3 m ρ c b
theorem W3_result (c : Dev nD) : W3 m ρ c (Proc.devRef .tc main_v4) = (dat1 (V2 m ρ) c).arrAt 3 cfg1.N := by
  unfold W3; exact Function.update_self ..
theorem W3_of_ne (c : Dev nD) (b : Ref sig .tc) (hb : b ≠ main_v4) :
    W3 m ρ c (Proc.devRef .tc b) = W2 m ρ c (Proc.devRef .tc b) := by
  unfold W3; exact Function.update_of_ne (StableHlo.devRef_ne_of_ne hb) ..

/-! ### The arguments end as launched -/

/-- The activations end as launched: the host stretch does not write them and the projection call only reads them. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

/-- Argument 1 ends as launched: no host operation writes it and no call stages it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

/-- Argument 2 ends as launched: no host operation writes it and no call stages it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

/-- Argument 3 ends as launched: no host operation writes it and no call stages it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-- Argument 4 ends as launched: no host operation writes it and no call stages it. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

/-- Argument 5 ends as launched: no host operation writes it and no call stages it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

/-- Argument 6 ends as launched: no host operation writes it and no call stages it. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl

/-! ## The proof data family and the thread state -/

/-- No call has a prefetched table. -/
abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item of the run, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W3 m ρ c) ∗ ∃ r, prngReg c r)

/-! ## The calls as items of the run -/

set_option backward.isDefEq.respectTransparency.types false in
/-- The projection call: entered from every unscoped buffer at the contents after the host stretch, left at those with
    the projected array written. Its arrays are distinct buffers, taken out whole and put back whole. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The three input windows of the attention call end holding the projected array as they found it. -/
theorem arrAt1_in (c : Dev nD) (w : Fin cfg1.W) (hw : (cfg1.win w).isOut = false) :
    (dat1 (V2 m ρ) c).arrAt w cfg1.N = V2 m ρ c (Pipeline.arrRef spec1 w) :=
  ((dat1 (V2 m ρ) c).arrAt_in w hw _).trans (A_eq1 (V2 m ρ) c w)

/-- Off the attention call's two buffers the last contents are the ones it was entered with. -/
theorem hrest1 (c : Dev nD) : ∀ b, b ∉ Finset.univ.image (Pipeline.arrRef spec1) → V3 m ρ c b = V2 m ρ c b :=
  fun b hb => W3_of_ne m ρ c b fun e => hb (by rw [arrs1, e]; decide)

set_option backward.isDefEq.respectTransparency.types false in
/-- The attention call: entered from every unscoped buffer at the contents the projection call left, left at those with
    the result array written. Three of its windows read the projected array: its share is split among them at entry
    and joined at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0) ∗ Pipeline.unscopedRest spec1 c (V2 m ρ c)) := by
      rw [Pipeline.unscopedBufs_split₀ (Pipeline.pin (pcfgs (F := F)) adm) 1 winFacts₀1.arr_unscoped c (V2 m ρ c)]
      exact sep_mono (arrays1_of_bufs (V2 m ρ) c (V2 m ρ c) _ rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c))
        ⊢ (unscopedBufs c (V3 m ρ c) : sProp 𝕄) := by
      rw [Pipeline.unscopedBufs_split₀ (Pipeline.pin (pcfgs (F := F)) adm) 1 winFacts₀1.arr_unscoped c (V3 m ρ c)]
      refine sep_mono (bufs_of_arrays1 (V2 m ρ) c (V3 m ρ c) _
        ((arrAt1_in m ρ c 0 rfl).trans (W3_of_ne m ρ c main_v3 (by decide)).symm)
        ((arrAt1_in m ρ c 1 rfl).trans (W3_of_ne m ρ c main_v3 (by decide)).symm)
        ((arrAt1_in m ρ c 2 rfl).trans (W3_of_ne m ρ c main_v3 (by decide)).symm)
        (W3_result m ρ c).symm) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's three items in order: the host stretch, the projection call, the attention call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program IS the run of its items. -/
theorem main_run (c : Dev nD) : main (F := F) c = Pipeline.Seg.run (segs m ρ) := (main_chain c).trans (by chain_rfl)

set_option backward.isDefEq.respectTransparency.types false in
/-- THE RUN, at any float instance: from any memory with zero counters, every weakly fair execution of the program on
    the TensorCores terminates, nothing faulting, and every final memory holds every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## What the claims cite -/

/-- THE FRAME: every weakly fair execution terminates, nothing faulting, and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c)⟩) (run_all m ρ)

/-- THE RESULT: moreover the result array ends at what the attention call's write-backs leave, entered from what the
    projection call's write-backs left. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v4 (by decide))).trans (W3_result m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c)⟩) (run_all m ρ)

end Cert.Kernel.Hand

end
-- ==== Proof.Spec.lean ====
/-
  Single-head self-attention over the extended reals, as one function of the seven argument arrays.

  For a batch entry b, a position s and a feature e, a PROJECTION of the activations x by a weight matrix W and a bias β is
      proj x W β b s e = (Σ_d x[b,s,d] · W[d,e]) + β[e].
  With Q, K, V the three projections, the SCORE of query position q against key position k is the inner product of their
  feature rows times a fixed scale c; a row of scores becomes WEIGHTS by the softmax taken relative to the row's supremum,
      weight S k = exp (S k − sup S) / Σ_j exp (S j − sup S),
  and the result at (b, q, e) is the weighted sum Σ_k weight(score b q ·) k · V[b,k,e].

  Everything is stated on coordinates of literal extents (4 batch entries, 2048 positions, 1024 features), and `attn` reads
  an index of the result array through its three coordinates.
-/
import Idealize.ShloMosaic.PureOps.Ideal
import Idealize.ShloMosaic.Lib.ValueIdx

noncomputable section

namespace Cert.Attention

open Idealize.ShloMosaic Idealize.ShloMosaic.ValueIdx

/-- Activations: batch × position × feature. -/
abbrev Act : Shape := ⟨3, ![4, 2048, 1024]⟩
/-- A projection's weights: input feature × output feature. -/
abbrev Wt : Shape := ⟨2, ![1024, 1024]⟩
/-- A projection's bias: output feature. -/
abbrev Bs : Shape := ⟨1, ![1024]⟩

/-- A projected array read by coordinates. -/
abbrev Proj : Type := Fin 4 → Fin 2048 → Fin 1024 → EReal

/-- Position (b, s) of the activations against column e of the weights, plus the bias at e. -/
def proj (x : Act.Idx → EReal) (W : Wt.Idx → EReal) (β : Bs.Idx → EReal) : Proj :=
  fun b s e => (∑ d : Fin 1024, x (ix3 b s d) * W (ix2 d e)) + β (ix1 e)

/-- The scaled inner product of query row (b, q) with key row (b, k). -/
def score (Q K : Proj) (c : EReal) (b : Fin 4) (q k : Fin 2048) : EReal :=
  (∑ d : Fin 1024, Q b q d * K b k d) * c

/-- The softmax weight of entry k of a row of scores, taken relative to the row's supremum. -/
def weight (S : Fin 2048 → EReal) (k : Fin 2048) : EReal :=
  Ideal.div (Ideal.exp (S k - Finset.univ.sup S)) (∑ j : Fin 2048, Ideal.exp (S j - Finset.univ.sup S))

/-- The weighted sum of the value rows of batch entry b, by the softmax weights of query q's scores. -/
def attend (Q K V : Proj) (c : EReal) (b : Fin 4) (q : Fin 2048) (e : Fin 1024) : EReal :=
  ∑ k : Fin 2048, weight (score Q K c b q) k * V b k e

/-- The whole result array: attention of the three projections of x, read at an index by its coordinates. -/
def attn (x : Act.Idx → EReal) (Wq : Wt.Idx → EReal) (bq : Bs.Idx → EReal) (Wk : Wt.Idx → EReal) (bk : Bs.Idx → EReal)
    (Wv : Wt.Idx → EReal) (bv : Bs.Idx → EReal) (c : EReal) : Act.Idx → EReal :=
  fun i => attend (proj x Wq bq) (proj x Wk bk) (proj x Wv bv) c (i 0) (i 1) (i 2)

/-- At an index built from coordinates, the result is `attend` at those coordinates. -/
theorem attn_ix3 (x : Act.Idx → EReal) (Wq : Wt.Idx → EReal) (bq : Bs.Idx → EReal) (Wk : Wt.Idx → EReal) (bk : Bs.Idx → EReal)
    (Wv : Wt.Idx → EReal) (bv : Bs.Idx → EReal) (c : EReal) (b : Fin 4) (q : Fin 2048) (e : Fin 1024) :
    attn x Wq bq Wk bk Wv bv c (ix3 b q e) = attend (proj x Wq bq) (proj x Wk bk) (proj x Wv bv) c b q e := rfl

end Cert.Attention

end
-- ==== Proof.LibFoldExtrema.lean ====
/-
  Maxima and minima of finitely many extended reals, read off the reductions that compute them.

  On the extended reals `maximumf` is `max` and the f32 pattern of -∞ is the bottom element, so a reduction with
  `maximumf` started from that pattern is the SUPREMUM of the entries it reduces: the fold of `max` from `⊥` over the
  finite set of source indices that drop to the result index, in any order. Dually a reduction with `minimumf` started
  from the pattern of +∞ is the INFIMUM of those entries. This holds for a vector reduction over any list of axes and
  for a one-operand host reduction alike; both are stated here over the set of indices `drop` sends to the result index.
-/
import Idealize.ShloMosaic.PureOps.Ideal.Laws

namespace Cert.FoldExtrema

open Idealize.ShloMosaic

/-- The f32 pattern of -∞ is the least extended real. -/
theorem ofBits_neg_inf : Ideal.ofBits .f32 0xFF800000#32 = (⊥ : EReal) := by simp [Ideal.ofBits, Ideal.ieee]

/-- The f32 pattern of +∞ is the greatest extended real. -/
theorem ofBits_pos_inf : Ideal.ofBits .f32 0x7F800000#32 = (⊤ : EReal) := by simp [Ideal.ofBits, Ideal.ieee]

/-- Folding `max` from the least element over a finite set is taking the supremum over it. -/
theorem fold_max_bot {ι : Type} (s : Finset ι) (f : ι → EReal) : s.fold max ⊥ f = s.sup f := rfl

/-- Folding `min` from the greatest element over a finite set is taking the infimum over it. -/
theorem fold_min_top {ι : Type} (s : Finset ι) (f : ι → EReal) : s.fold min ⊤ f = s.inf f := rfl

variable {s t : Shape} {axes : List (Fin s.rank)}

/-- A vector `maximumf` reduction from -∞, on the extended reals: at `j` the supremum of the source over the indices
    that drop to `j`. -/
theorem multiReduction_max_eq_sup (src : FVec Ideal s .f32) (h : s.Reduces axes t) (hφ : FKind.Formats .f32)
    (hacc : (0xFF800000#32 : BitVec 32) = FKind.maximumf.neutral .f32 hφ) (j : t.Idx) :
    multiReduction .maximumf axes t src 0xFF800000#32 h hφ hacc j
      = (Finset.univ.filter fun i => h.drop i = j).sup src := by
  rw [multiReduction_maximumf_eq_fold]
  show Finset.fold max (Ideal.ofBits .f32 0xFF800000#32) src _ = _
  rw [ofBits_neg_inf, fold_max_bot]

/-- A vector `minimumf` reduction from +∞, on the extended reals: at `j` the infimum of the source over the indices
    that drop to `j`. -/
theorem multiReduction_min_eq_inf (src : FVec Ideal s .f32) (h : s.Reduces axes t) (hφ : FKind.Formats .f32)
    (hacc : (0x7F800000#32 : BitVec 32) = FKind.minimumf.neutral .f32 hφ) (j : t.Idx) :
    multiReduction .minimumf axes t src 0x7F800000#32 h hφ hacc j
      = (Finset.univ.filter fun i => h.drop i = j).inf src := by
  rw [multiReduction_minimumf_eq_fold]
  show Finset.fold min (Ideal.ofBits .f32 0x7F800000#32) src _ = _
  rw [ofBits_pos_inf, fold_min_top]

/-- A host reduction with `maximumf` whose initial value is the constant -∞, on the extended reals: at `j` the
    supremum of the operand over the indices that drop to `j`. -/
theorem hostReduce_max_eq_sup {u : Shape} (x : s.Idx → Ideal .f32) (h : s.ReducesTo axes t) (hu : 0 < u.numel)
    (j : t.Idx) :
    Host.reduce (FloatOps.maximumf (F := Ideal) (φ := .f32)) x (constant (F := Ideal) u .f32 0xFF800000#32) h hu j
      = (Finset.univ.filter fun i => h.drop i = j).sup x := by
  rw [Host.reduce_eq_fold]
  show Finset.fold max (Ideal.ofBits .f32 0xFF800000#32) x _ = _
  rw [ofBits_neg_inf, fold_max_bot]

/-- A host reduction with `minimumf` whose initial value is the constant +∞, on the extended reals: at `j` the
    infimum of the operand over the indices that drop to `j`. -/
theorem hostReduce_min_eq_inf {u : Shape} (x : s.Idx → Ideal .f32) (h : s.ReducesTo axes t) (hu : 0 < u.numel)
    (j : t.Idx) :
    Host.reduce (FloatOps.minimumf (F := Ideal) (φ := .f32)) x (constant (F := Ideal) u .f32 0x7F800000#32) h hu j
      = (Finset.univ.filter fun i => h.drop i = j).inf x := by
  rw [Host.reduce_eq_fold]
  show Finset.fold min (Ideal.ofBits .f32 0x7F800000#32) x _ = _
  rw [ofBits_pos_inf, fold_min_top]

end Cert.FoldExtrema
-- ==== Proof.LibOneAxisExtrema.lean ====
/-
  Extrema over the entries a ONE-AXIS reduction sends to a result index.

  A reduction of an array of shape s over the single axis a produces an array of the shape t with that axis dropped.
  The source indices that drop to a result index j are exactly j with a coordinate k of axis a inserted, k ranging over
  the axis; so the supremum (or infimum) of a function over those source indices is the supremum (infimum) over k of
  the function at j-with-k-inserted. Stated for a vector reduction's index map and for a host reduction's, which agree.
  Together with "a maximum-reduction started from -∞ is the supremum over the indices dropping to j" this reads a row
  maximum as the supremum over the row's coordinates, whatever the shape and the axis.
-/
import Idealize.ShloMosaic.PureOps.Ideal.Laws

namespace Cert.OneAxisExtrema

open Idealize.ShloMosaic

variable {s t : Shape} {a : Fin s.rank}

/-- Vector form: the supremum of x over the source indices that drop to j is the supremum, over the coordinates k of
    the reduced axis, of x at j with k inserted on that axis. -/
theorem sup_filter_drop_single (h : s.Reduces [a] t) (x : s.Idx → EReal) (j : t.Idx) :
    (Finset.univ.filter fun i => h.drop i = j).sup x
      = (Finset.univ : Finset (Fin (s.size a))).sup (fun k => x (h.lift j k)) := by
  rw [h.filter_drop_eq_image_lift j, Finset.sup_image]
  rfl

/-- Vector form, dually: the infimum over the source indices that drop to j is the infimum over the reduced axis. -/
theorem inf_filter_drop_single (h : s.Reduces [a] t) (x : s.Idx → EReal) (j : t.Idx) :
    (Finset.univ.filter fun i => h.drop i = j).inf x
      = (Finset.univ : Finset (Fin (s.size a))).inf (fun k => x (h.lift j k)) := by
  rw [h.filter_drop_eq_image_lift j, Finset.inf_image]
  rfl

/-- Host form: a host reduction's index map is the vector reduction's, so the same supremum. -/
theorem sup_filter_dropTo_single (h' : s.ReducesTo [a] t) (h : s.Reduces [a] t) (x : s.Idx → EReal) (j : t.Idx) :
    (Finset.univ.filter fun i => h'.drop i = j).sup x = Finset.univ.sup fun k : Fin (s.size a) => x (h.lift j k) := by
  classical
  rw [Shape.ReducesTo.drop_eq_drop h' h, h.filter_drop_eq_image_lift j, Finset.sup_image]
  rfl

/-- Host form, dually. -/
theorem inf_filter_dropTo_single (h' : s.ReducesTo [a] t) (h : s.Reduces [a] t) (x : s.Idx → EReal) (j : t.Idx) :
    (Finset.univ.filter fun i => h'.drop i = j).inf x = Finset.univ.inf fun k : Fin (s.size a) => x (h.lift j k) := by
  classical
  rw [Shape.ReducesTo.drop_eq_drop h' h, h.filter_drop_eq_image_lift j, Finset.inf_image]
  rfl

end Cert.OneAxisExtrema
-- ==== Proof.RefAttn.lean ====
/-
  The reference computation of single-head self-attention is the function `attn` of its seven argument arrays.

  The reference works in stages. Three times it multiplies the activations x by a weight matrix W and adds a bias β
  carried along the batch and position axes; at (b, s, e) such a stage is (Σ_d x[b,s,d] · W[d,e]) + β[e], the
  projection. From the first two projections Q and K it forms, at (b, q, k), the inner product over the features of
  Q's row (b, q) with K's row (b, k), and multiplies it by the scalar 1 / √1024 carried to every entry. That scalar is
  evaluated once: 1024 = 32², so it is 1 / 32 = 2⁻⁵, an f32 number, and the stage is the score with that scale.

  A row of scores becomes weights in five steps. The row's maximum is a reduction by `max` from -∞ over the last axis:
  over the extended reals this is the supremum over the entries it reduces, and for a reduction over ONE axis those
  entries are the row's 2048 coordinates, so it is the supremum of the row (the further `max` with -∞ changes nothing).
  Subtracting it, taking exponentials, summing the row from the initial value 0 and dividing each exponential by that
  sum gives exp (S k − sup S) / Σ_j exp (S j − sup S), the weight of entry k. The last stage sums, over k, the weight
  of k in row (b, q) times the third projection's row (b, k) at feature e.

  Each stage is read at an index built from coordinates of literal extents, so every step is an identity between
  indices checked coordinate by coordinate and a rewriting by the previous stage's lemma.
-/
import proofs.«179508_j88218628260008_2_alg».proof.Proof.Spec
import proofs.«179508_j88218628260008_2_alg».proof.Proof.LibFoldExtrema
import proofs.«179508_j88218628260008_2_alg».proof.Proof.LibOneAxisExtrema
import proofs.«179508_j88218628260008_2_alg».proof.Proof.Gen.ReferenceIdeal.Read
import Idealize.ShloMosaic.Lib.ValueIdx
import Idealize.ShloMosaic.PureOps.Ideal.Laws

noncomputable section

namespace Cert.RefAttn

open Idealize.ShloMosaic Idealize.ShloMosaic.ValueIdx Cert.ReferenceIdeal Cert.ReferenceIdeal.Gen Cert.ReferenceIdeal.Read Cert.Attention
open Cert.OneAxisExtrema

/-! ## The scale -/

/-- The f32 number 1. -/
theorem ofBits_one : Ideal.ofBits .f32 0x3F800000#32 = ((1 : ℝ) : EReal) := by
  simp [Ideal.ofBits, Ideal.ieee, -EReal.coe_mul]; norm_num

/-- The f32 number 1024. -/
theorem ofBits_1024 : Ideal.ofBits .f32 0x44800000#32 = ((1024 : ℝ) : EReal) := by
  simp [Ideal.ofBits, Ideal.ieee, -EReal.coe_mul]; norm_num

/-- The f32 number 2⁻⁵. -/
theorem ofBits_inv32 : Ideal.ofBits .f32 0x3D000000#32 = ((1 / 32 : ℝ) : EReal) := by
  simp [Ideal.ofBits, Ideal.ieee, -EReal.coe_mul]; norm_num

/-- √1024 = 32. -/
theorem sqrt_1024 : Ideal.sqrt ((1024 : ℝ) : EReal) = ((32 : ℝ) : EReal) := by
  rw [Ideal.sqrt_coe, if_neg (by norm_num), show (1024 : ℝ) = 32 ^ 2 by norm_num, Real.sqrt_sq (by norm_num)]

/-- 1 / √1024 is the f32 number 2⁻⁵. -/
theorem scale_eq : Ideal.div (Ideal.ofBits .f32 0x3F800000#32) (Ideal.sqrt (Ideal.ofBits .f32 0x44800000#32))
    = Ideal.ofBits .f32 0x3D000000#32 := by
  rw [ofBits_one, ofBits_1024, sqrt_1024, ofBits_inv32, Ideal.div_coe (by norm_num), ← EReal.coe_mul, one_mul]

/-! ## The stages, each at an index built from its coordinates -/

section Stages

variable (x0 : (⟨S4x2048x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal))

/-! ### The three projections -/

/-- The first sum-plus-bias stage is the projection of the activations by the first weights and bias: the matrix
    product reads row (b, s) of the activations against column e of the weights, and the two broadcasts carry the
    bias's entry e to (b, s, e). -/
theorem query_eq (b : Fin 4) (s : Fin 2048) (e : Fin 1024) :
    val_main_v3 (F := Ideal) x0 x1 x2 (ix3 b s e) = proj x0 x1 x2 b s e := by
  rw [val_main_v3_apply, val_main_v0_apply, val_main_v2_apply, val_main_v1_apply]
  have el : ∀ k : Fin 1024, lidx_main_v0 (ix3 b s e) k = ix3 b s k := fun k => funext fun a => Fin.ext (by
    match a with | ⟨0, _⟩ => rfl | ⟨1, _⟩ => rfl | ⟨2, _⟩ => rfl)
  have er : ∀ k : Fin 1024, ridx_main_v0 (ix3 b s e) k = ix2 k e := fun k => funext fun a => Fin.ext (by
    match a with | ⟨0, _⟩ => rfl | ⟨1, _⟩ => rfl)
  have eb : idx_main_v1 (idx_main_v2 (ix3 b s e)) = ix1 e := funext fun a => Fin.ext (by
    match a with | ⟨0, _⟩ => rfl)
  simp only [el, er, eb, Ideal.addf_def]
  rfl

/-- The second sum-plus-bias stage is the projection by the second weights and bias. -/
theorem key_eq (b : Fin 4) (s : Fin 2048) (e : Fin 1024) :
    val_main_v7 (F := Ideal) x0 x3 x4 (ix3 b s e) = proj x0 x3 x4 b s e := by
  rw [val_main_v7_apply, val_main_v4_apply, val_main_v6_apply, val_main_v5_apply]
  have el : ∀ k : Fin 1024, lidx_main_v4 (ix3 b s e) k = ix3 b s k := fun k => funext fun a => Fin.ext (by
    match a with | ⟨0, _⟩ => rfl | ⟨1, _⟩ => rfl | ⟨2, _⟩ => rfl)
  have er : ∀ k : Fin 1024, ridx_main_v4 (ix3 b s e) k = ix2 k e := fun k => funext fun a => Fin.ext (by
    match a with | ⟨0, _⟩ => rfl | ⟨1, _⟩ => rfl)
  have eb : idx_main_v5 (idx_main_v6 (ix3 b s e)) = ix1 e := funext fun a => Fin.ext (by
    match a with | ⟨0, _⟩ => rfl)
  simp only [el, er, eb, Ideal.addf_def]
  rfl

/-- The third sum-plus-bias stage is the projection by the third weights and bias. -/
theorem value_eq (b : Fin 4) (s : Fin 2048) (e : Fin 1024) :
    val_main_v11 (F := Ideal) x0 x5 x6 (ix3 b s e) = proj x0 x5 x6 b s e := by
  rw [val_main_v11_apply, val_main_v8_apply, val_main_v10_apply, val_main_v9_apply]
  have el : ∀ k : Fin 1024, lidx_main_v8 (ix3 b s e) k = ix3 b s k := fun k => funext fun a => Fin.ext (by
    match a with | ⟨0, _⟩ => rfl | ⟨1, _⟩ => rfl | ⟨2, _⟩ => rfl)
  have er : ∀ k : Fin 1024, ridx_main_v8 (ix3 b s e) k = ix2 k e := fun k => funext fun a => Fin.ext (by
    match a with | ⟨0, _⟩ => rfl | ⟨1, _⟩ => rfl)
  have eb : idx_main_v9 (idx_main_v10 (ix3 b s e)) = ix1 e := funext fun a => Fin.ext (by
    match a with | ⟨0, _⟩ => rfl)
  simp only [el, er, eb, Ideal.addf_def]
  rfl

/-! ### The scores -/

/-- The scaled product stage at (b, q, k): the inner product over the features of query row (b, q) with key row (b, k),
    times the broadcast scalar 1 / √1024, which is the f32 number 2⁻⁵. -/
theorem score_eq (b : Fin 4) (q k : Fin 2048) :
    val_main_v16 (F := Ideal) x0 x1 x2 x3 x4 (ix3 b q k)
      = score (proj x0 x1 x2) (proj x0 x3 x4) (Ideal.ofBits .f32 0x3D000000#32) b q k := by
  rw [val_main_v16_apply, val_main_v14_apply, val_main_v15_apply, val_main_v13_apply, val_main_v12_apply,
    val_main_cst_0_apply, val_main_cst_apply]
  have el : ∀ d : Fin 1024, lidx_main_v14 (ix3 b q k) d = ix3 b q d := fun d => funext fun a => Fin.ext (by
    match a with | ⟨0, _⟩ => rfl | ⟨1, _⟩ => rfl | ⟨2, _⟩ => rfl)
  have er : ∀ d : Fin 1024, ridx_main_v14 (ix3 b q k) d = ix3 b k d := fun d => funext fun a => Fin.ext (by
    match a with | ⟨0, _⟩ => rfl | ⟨1, _⟩ => rfl | ⟨2, _⟩ => rfl)
  simp only [el, er, query_eq, key_eq, Ideal.mulf_def, Ideal.hostDivf_def, Ideal.hostUnary_sqrt_def, Ideal.ofBits_def,
    scale_eq]
  rfl

/-! ### The row maximum -/

/-- The maximum stage at (b, q): the supremum over k of the scores of row (b, q). The reduction from -∞ over the last
    axis is the supremum over the indices that drop to (b, q), which are (b, q, k) for k in the reduced axis; the
    following maximum with a broadcast -∞ changes nothing. -/
theorem rowmax_eq (b : Fin 4) (q : Fin 2048) :
    val_main_v19 (F := Ideal) x0 x1 x2 x3 x4 (ix2 b q)
      = Finset.univ.sup (score (proj x0 x1 x2) (proj x0 x3 x4) (Ideal.ofBits .f32 0x3D000000#32) b q) := by
  rw [val_main_v19_apply, val_main_v18_apply, val_main_cst_2_apply]
  unfold val_main_v17 val_main_cst_1
  rw [Cert.FoldExtrema.hostReduce_max_eq_sup,
    sup_filter_dropTo_single reducesTo_S4x2048x2048_S4x2048_d2 (by decide)]
  simp only [Ideal.maximumf_def, Ideal.ofBits_def, Cert.FoldExtrema.ofBits_neg_inf]
  rw [max_eq_right bot_le]
  refine Finset.sup_congr rfl fun k _ => ?_
  exact Eq.trans (congrArg (val_main_v16 (F := Ideal) x0 x1 x2 x3 x4) (funext fun a => Fin.ext (by
    match a with | ⟨0, _⟩ => rfl | ⟨1, _⟩ => rfl | ⟨2, _⟩ => rfl))) (score_eq x0 x1 x2 x3 x4 b q k)

/-! ### The softmax weights -/

/-- The exponential stage at (b, q, k): the exponential of the score less the row's supremum, which the two broadcasts
    carry from (b, q) to every k. -/
theorem expo_eq (b : Fin 4) (q k : Fin 2048) :
    val_main_v23 (F := Ideal) x0 x1 x2 x3 x4 (ix3 b q k)
      = Ideal.exp (score (proj x0 x1 x2) (proj x0 x3 x4) (Ideal.ofBits .f32 0x3D000000#32) b q k
          - Finset.univ.sup (score (proj x0 x1 x2) (proj x0 x3 x4) (Ideal.ofBits .f32 0x3D000000#32) b q)) := by
  rw [val_main_v23_apply, val_main_v22_apply, val_main_v21_apply, val_main_v20_apply]
  have em : idx_main_v20 (idx_main_v21 (ix3 b q k)) = ix2 b q := funext fun a => Fin.ext (by
    match a with | ⟨0, _⟩ => rfl | ⟨1, _⟩ => rfl)
  simp only [em, score_eq, rowmax_eq, Ideal.subf_def, Ideal.hostUnary_exp_def]

/-- The sum stage at (b, q): the sum over j of the exponentials of row (b, q); its initial value is the f32 zero. -/
theorem rowsum_eq (b : Fin 4) (q : Fin 2048) :
    val_main_v24 (F := Ideal) x0 x1 x2 x3 x4 (ix2 b q)
      = ∑ j : Fin 2048, Ideal.exp (score (proj x0 x1 x2) (proj x0 x3 x4) (Ideal.ofBits .f32 0x3D000000#32) b q j
          - Finset.univ.sup (score (proj x0 x1 x2) (proj x0 x3 x4) (Ideal.ofBits .f32 0x3D000000#32) b q)) := by
  rw [val_main_v24_apply, val_main_cst_3_apply]
  have es : ∀ j : Fin 2048, idx_main_v24 (ix2 b q) j = ix3 b q j := fun j => funext fun a => Fin.ext (by
    match a with | ⟨0, _⟩ => rfl | ⟨1, _⟩ => rfl | ⟨2, _⟩ => rfl)
  simp only [es, expo_eq, Ideal.ofBits_def, Ideal.ofBits_zero_f32, zero_add]

/-- The quotient stage at (b, q, k) is the softmax weight of entry k of the scores of row (b, q). -/
theorem weight_eq (b : Fin 4) (q k : Fin 2048) :
    val_main_v27 (F := Ideal) x0 x1 x2 x3 x4 (ix3 b q k)
      = weight (score (proj x0 x1 x2) (proj x0 x3 x4) (Ideal.ofBits .f32 0x3D000000#32) b q) k := by
  rw [val_main_v27_apply, val_main_v26_apply, val_main_v25_apply]
  have ed : idx_main_v25 (idx_main_v26 (ix3 b q k)) = ix2 b q := funext fun a => Fin.ext (by
    match a with | ⟨0, _⟩ => rfl | ⟨1, _⟩ => rfl)
  simp only [ed, expo_eq, rowsum_eq, Ideal.hostDivf_def]
  rfl

/-! ### The result -/

/-- The last product at (b, q, e): the sum over k of the weight of k in row (b, q) times the value row (b, k) at e. -/
theorem result_eq (b : Fin 4) (q : Fin 2048) (e : Fin 1024) :
    val_main_v28 (F := Ideal) x0 x1 x2 x3 x4 x5 x6 (ix3 b q e)
      = attend (proj x0 x1 x2) (proj x0 x3 x4) (proj x0 x5 x6) (Ideal.ofBits .f32 0x3D000000#32) b q e := by
  rw [val_main_v28_apply]
  have el : ∀ k : Fin 2048, lidx_main_v28 (ix3 b q e) k = ix3 b q k := fun k => funext fun a => Fin.ext (by
    match a with | ⟨0, _⟩ => rfl | ⟨1, _⟩ => rfl | ⟨2, _⟩ => rfl)
  have er : ∀ k : Fin 2048, ridx_main_v28 (ix3 b q e) k = ix3 b k e := fun k => funext fun a => Fin.ext (by
    match a with | ⟨0, _⟩ => rfl | ⟨1, _⟩ => rfl | ⟨2, _⟩ => rfl)
  simp only [el, er, weight_eq, value_eq]
  rfl

end Stages

/-- The reference's result array is the attention of the three projections of the activations, with scale 2⁻⁵. -/
theorem ref_eq (x0 : (⟨Cert.ReferenceIdeal.S4x2048x1024, .f32⟩ : BufTy).Contents (Elt Ideal))
    (x1 : (⟨Cert.ReferenceIdeal.S1024x1024, .f32⟩ : BufTy).Contents (Elt Ideal))
    (x2 : (⟨Cert.ReferenceIdeal.S1024, .f32⟩ : BufTy).Contents (Elt Ideal))
    (x3 : (⟨Cert.ReferenceIdeal.S1024x1024, .f32⟩ : BufTy).Contents (Elt Ideal))
    (x4 : (⟨Cert.ReferenceIdeal.S1024, .f32⟩ : BufTy).Contents (Elt Ideal))
    (x5 : (⟨Cert.ReferenceIdeal.S1024x1024, .f32⟩ : BufTy).Contents (Elt Ideal))
    (x6 : (⟨Cert.ReferenceIdeal.S1024, .f32⟩ : BufTy).Contents (Elt Ideal)) :
    Cert.ReferenceIdeal.Read.val_main_v28 (F := Ideal) x0 x1 x2 x3 x4 x5 x6
      = Cert.Attention.attn x0 x1 x2 x3 x4 x5 x6 (Ideal.ofBits .f32 0x3D000000#32) := by
  funext i
  obtain ⟨b, q, e, rfl⟩ : ∃ (b : Fin 4) (q : Fin 2048) (e : Fin 1024), i = ix3 b q e := ⟨i 0, i 1, i 2, eq_ix3 i⟩
  rw [attn_ix3]
  exact result_eq x0 x1 x2 x3 x4 x5 x6 b q e

end Cert.RefAttn

end
-- ==== Proof.LibKeepdims.lean ====
/-
  A kept reduced axis, read at an index.

  A row reduction that keeps its axis as a unit axis is spelt as a cast of the reduced vector [a] to a column [a, 1]
  followed by a spread of that column over b columns, [a, 1] → [a, b]. At (p, c) the spread reads the column at row p,
  and the column at (p, 0) reads the vector at p: both pairs of indices have the same row-major position, and a
  broadcast keeps every coordinate of an axis whose extent it does not change. Stated at any extents and any element type.
-/
import Idealize.ShloMosaic.Lib.Pipeline.Value
import Idealize.ShloMosaic.Lib.ValueIdx
import Idealize.ShloMosaic.Lib.ValueLayout

namespace Cert.Keepdims

open Idealize.ShloMosaic Idealize.ShloMosaic.ValueIdx

variable {α : Type}

/-- An `[a]` array cast to `[a, 1]` reads, at `(i, u)`, the operand at `i`, whatever the unit coordinate `u`: both
    indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.PayValue.lean ====
/-
  The two kernel bodies' stored blocks, read entry by entry over the extended reals.

  The projection body stores, at row r and column e of its block, the inner product of row r of the activations block
  with column e of the weights, plus the bias at e. The attention body stores, at row r and feature e, the softmax
  weights of query row r's scaled scores against the 2048 key rows, applied to the value rows: with
      S j = (Σ_d q[r,d] · k[j,d]) · c,
  the entry is Σ_j (exp (S j − sup S) / Σ_j' exp (S j' − sup S)) · v[j,e].

  Each body is a composition of pointwise operations (read through at an index), casts that add or drop a unit axis,
  one-axis reductions of a 512 × 2048 matrix along its rows, and matrix products with one contracted axis. Every
  non-pointwise operation gets one small lemma at an index built from coordinates of literal extents; the two theorems
  at the end chain them. The supremum over the
  indices a one-axis reduction sends to a result index, and the two column forms of a kept reduced axis, hold at every
  shape and are cited from the general lemma files.
-/
import proofs.«179508_j88218628260008_2_alg».proof.Proof.Spec
import proofs.«179508_j88218628260008_2_alg».proof.Proof.LibFoldExtrema
import proofs.«179508_j88218628260008_2_alg».proof.Proof.LibOneAxisExtrema
import proofs.«179508_j88218628260008_2_alg».proof.Proof.LibKeepdims
import proofs.«179508_j88218628260008_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.PayValue

open Idealize.ShloMosaic Idealize.ShloMosaic.ValueIdx Cert.KernelIdeal Cert.KernelIdeal.Gen
open Cert.OneAxisExtrema Cert.Keepdims

/-! ## The three matrix products at an entry

Each contracts one axis of each operand into a zero accumulator, so an entry is the sum over that axis's coordinates
of the operands' products. For each product: the operand indices' coordinates (the kept axis carries the entry's
coordinate, the contracted axis the summation coordinate), then the entry. -/

/-! ### Activations × weights: `[512, 1024] · [1024, 3072]`, contracting the left's axis 1 with the right's axis 0 -/

theorem matmul_xw_lhs_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem matmul_xw_lhs_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem matmul_xw_rhs_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem matmul_xw_rhs_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- Entry `(p, e)` of the product into a zero accumulator: row `p` of the left against column `e` of the right. -/
theorem matmul_xw_apply (l : FVec Ideal S512x1024 .bf16) (w : FVec Ideal S1024x3072 .bf16) (p : Fin 512) (e : Fin 3072) :
    matmul dot_S512x1024_S1024x3072_S512x3072_1_0_0_1_n_n none l w (constant (F := Ideal) S512x3072 .f32 0x00000000#32) (ix2 p e)
      = ∑ d : Fin 1024, l (ix2 p d) * w (ix2 d e) := by
  simp only [matmul]
  rw [Ideal.matmul_constant_zero_apply, ← Equiv.sum_comp (contrEquiv1 dot_S512x1024_S1024x3072_S512x3072_1_0_0_1_n_n 1024 rfl rfl).symm]
  refine Finset.sum_congr rfl fun d _ => ?_
  have hk := contrEquiv1_symm_val dot_S512x1024_S1024x3072_S512x3072_1_0_0_1_n_n 1024 rfl rfl d
  have el : dot_S512x1024_S1024x3072_S512x3072_1_0_0_1_n_n.lhsIdx (ix2 p e) ((contrEquiv1 dot_S512x1024_S1024x3072_S512x3072_1_0_0_1_n_n 1024 rfl rfl).symm d) = ix2 p d := funext fun a => Fin.ext (by
    match a with
    | ⟨0, _⟩ => exact matmul_xw_lhs_0 _ _
    | ⟨1, _⟩ => exact (matmul_xw_lhs_1 _ _).trans hk)
  have er : dot_S512x1024_S1024x3072_S512x3072_1_0_0_1_n_n.rhsIdx (ix2 p e) ((contrEquiv1 dot_S512x1024_S1024x3072_S512x3072_1_0_0_1_n_n 1024 rfl rfl).symm d) = ix2 d e := funext fun a => Fin.ext (by
    match a with
    | ⟨0, _⟩ => exact (matmul_xw_rhs_0 _ _).trans hk
    | ⟨1, _⟩ => exact matmul_xw_rhs_1 _ _)
  rw [el, er]

/-! ### Queries × keys transposed: `[512, 1024] · [2048, 1024]`, contracting axis 1 of both -/

theorem matmul_qk_lhs_0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem matmul_qk_lhs_1 (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
theorem matmul_qk_rhs_0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem matmul_qk_rhs_1 (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-- Entry `(p, e)` of the product into a zero accumulator: row `p` of the left against ROW `e` of the right (the right
    operand is contracted along its second axis, so it enters transposed). -/
theorem matmul_qk_apply (l : FVec Ideal S512x1024 .bf16) (w : FVec Ideal S2048x1024 .bf16) (p : Fin 512) (e : Fin 2048) :
    matmul dot_S512x1024_S2048x1024_S512x2048_1_1_0_0_n_n none l w (constant (F := Ideal) S512x2048 .f32 0x00000000#32) (ix2 p e)
      = ∑ d : Fin 1024, l (ix2 p d) * w (ix2 e d) := by
  simp only [matmul]
  rw [Ideal.matmul_constant_zero_apply, ← Equiv.sum_comp (contrEquiv1 dot_S512x1024_S2048x1024_S512x2048_1_1_0_0_n_n 1024 rfl rfl).symm]
  refine Finset.sum_congr rfl fun d _ => ?_
  have hk := contrEquiv1_symm_val dot_S512x1024_S2048x1024_S512x2048_1_1_0_0_n_n 1024 rfl rfl d
  have el : dot_S512x1024_S2048x1024_S512x2048_1_1_0_0_n_n.lhsIdx (ix2 p e) ((contrEquiv1 dot_S512x1024_S2048x1024_S512x2048_1_1_0_0_n_n 1024 rfl rfl).symm d) = ix2 p d := funext fun a => Fin.ext (by
    match a with
    | ⟨0, _⟩ => exact matmul_qk_lhs_0 _ _
    | ⟨1, _⟩ => exact (matmul_qk_lhs_1 _ _).trans hk)
  have er : dot_S512x1024_S2048x1024_S512x2048_1_1_0_0_n_n.rhsIdx (ix2 p e) ((contrEquiv1 dot_S512x1024_S2048x1024_S512x2048_1_1_0_0_n_n 1024 rfl rfl).symm d) = ix2 e d := funext fun a => Fin.ext (by
    match a with
    | ⟨0, _⟩ => exact matmul_qk_rhs_0 _ _
    | ⟨1, _⟩ => exact (matmul_qk_rhs_1 _ _).trans hk)
  rw [el, er]

/-! ### Weights × values: `[512, 2048] · [2048, 1024]`, contracting the left's axis 1 with the right's axis 0 -/

theorem matmul_pv_lhs_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem matmul_pv_lhs_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem matmul_pv_rhs_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem matmul_pv_rhs_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- Entry `(p, e)` of the product into a zero accumulator: row `p` of the left against column `e` of the right. -/
theorem matmul_pv_apply (l : FVec Ideal S512x2048 .bf16) (w : FVec Ideal S2048x1024 .bf16) (p : Fin 512) (e : Fin 1024) :
    matmul dot_S512x2048_S2048x1024_S512x1024_1_0_0_1_n_n none l w (constant (F := Ideal) S512x1024 .f32 0x00000000#32) (ix2 p e)
      = ∑ j : Fin 2048, l (ix2 p j) * w (ix2 j e) := by
  simp only [matmul]
  rw [Ideal.matmul_constant_zero_apply, ← Equiv.sum_comp (contrEquiv1 dot_S512x2048_S2048x1024_S512x1024_1_0_0_1_n_n 2048 rfl rfl).symm]
  refine Finset.sum_congr rfl fun j _ => ?_
  have hk := contrEquiv1_symm_val dot_S512x2048_S2048x1024_S512x1024_1_0_0_1_n_n 2048 rfl rfl j
  have el : dot_S512x2048_S2048x1024_S512x1024_1_0_0_1_n_n.lhsIdx (ix2 p e) ((contrEquiv1 dot_S512x2048_S2048x1024_S512x1024_1_0_0_1_n_n 2048 rfl rfl).symm j) = ix2 p j := funext fun a => Fin.ext (by
    match a with
    | ⟨0, _⟩ => exact matmul_pv_lhs_0 _ _
    | ⟨1, _⟩ => exact (matmul_pv_lhs_1 _ _).trans hk)
  have er : dot_S512x2048_S2048x1024_S512x1024_1_0_0_1_n_n.rhsIdx (ix2 p e) ((contrEquiv1 dot_S512x2048_S2048x1024_S512x1024_1_0_0_1_n_n 2048 rfl rfl).symm j) = ix2 j e := funext fun a => Fin.ext (by
    match a with
    | ⟨0, _⟩ => exact (matmul_pv_rhs_0 _ _).trans hk
    | ⟨1, _⟩ => exact matmul_pv_rhs_1 _ _)
  rw [el, er]

/-! ## The projection body -/

/-- Entry (r, e) of the projection body's stored block: row r of the activations block against column e of the weights, plus the bias at e. -/
theorem pay_proj (v0 : Vec Ideal S1x512x1024 .f32) (v3 : Vec Ideal S1024x3072 .bf16) (v6 : Vec Ideal S3072 .f32) (r : Fin 512) (e : Fin 3072) :
    k0_pay1 (F := Ideal) v0 v3 v6 (ix3 (0 : Fin 1) r e) = (∑ d : Fin 1024, v0 (ix3 (0 : Fin 1) r d) * v3 (ix2 d e)) + v6 (ix1 e) := by
  unfold k0_pay1
  -- the stored block is the 512 × 3072 result under a leading unit axis; the format changes are the identity
  refine (shapeCast_ab_1ab_apply _ _ (0 : Fin 1) r e).trans ?_
  rw [truncf_apply, addf_apply]
  refine congrArg₂ (· + ·) ?_ ?_
  · -- the product, its left operand the activations block without its unit axis
    refine (matmul_xw_apply _ _ r e).trans ?_
    refine Finset.sum_congr rfl fun d _ => ?_
    rw [truncf_apply, shapeCast_1ab_ab_apply, shapeCast_self]
  · -- the bias as one row spread over the 512 rows
    refine (broadcastTo_1b_ab_apply _ _ r e).trans ?_
    refine (shapeCast_a_1a_apply _ _ (0 : Fin 1) e).trans ?_
    rw [shapeCast_self]

/-! ## The attention body: row reductions of a 512 × 2048 matrix, then the softmax row, then the block -/

/-- The row maximum started from -∞ is, at row `p`, the supremum of the row's 2048 entries. -/
theorem rowMax_apply (x : FVec Ideal S512x2048 .f32) (hφ : FKind.Formats .f32)
    (hacc : (0xFF800000#32 : BitVec 32) = FKind.maximumf.neutral .f32 hφ) (p : Fin 512) :
    multiReduction .maximumf [1] S512 x 0xFF800000#32 reduces_S512x2048_S512 hφ hacc (ix1 p)
      = Finset.univ.sup fun j : Fin 2048 => x (ix2 p j) := by
  refine (Cert.FoldExtrema.multiReduction_max_eq_sup x reduces_S512x2048_S512 hφ hacc (ix1 p)).trans ?_
  refine (sup_filter_drop_single reduces_S512x2048_S512 x (ix1 p)).trans ?_
  show (Finset.univ : Finset (Fin 2048)).sup _ = _
  refine congrArg _ (funext fun j => congrArg x ?_)
  funext c
  match c with
  | ⟨0, _⟩ => rfl
  | ⟨1, _⟩ => rfl

/-- The row sum started from zero is, at row `p`, the sum of the row's 2048 entries. -/
theorem rowSum_apply (x : FVec Ideal S512x2048 .f32) (hφ : FKind.Formats .f32)
    (hacc : (0x00000000#32 : BitVec 32) = FKind.add.neutral .f32 hφ) (p : Fin 512) :
    multiReduction .add [1] S512 x 0x00000000#32 reduces_S512x2048_S512 hφ hacc (ix1 p)
      = ∑ j : Fin 2048, x (ix2 p j) := by
  refine (Ideal.multiReduction_add_single x 0x00000000#32 reduces_S512x2048_S512 hφ hacc (ix1 p)).trans ?_
  show ∑ j : Fin 2048, _ = _
  refine Finset.sum_congr rfl fun j _ => congrArg x ?_
  funext c
  match c with
  | ⟨0, _⟩ => rfl
  | ⟨1, _⟩ => rfl

/-- A per-row value kept as a column and spread over the 2048 columns reads, at `(p, j)`, the value of row `p`. -/
theorem column_apply (y : FVec Ideal S512 .f32) (p : Fin 512) (j : Fin 2048) :
    broadcastTo S512x2048 (shapeCast S512x1 y shapeCasts_S512_S512x1) broadcasts_S512x1_S512x2048 (ix2 p j) = y (ix1 p) :=
  (broadcastTo_a1_ab_apply _ _ p j).trans (shapeCast_a_a1_apply _ _ p (0 : Fin 1))

/-- The scaled scores at `(p, j)`: query row `p` against key row `j`, times the scale. -/
theorem scores_apply (q : FVec Ideal S512x1024 .bf16) (k : FVec Ideal S2048x1024 .bf16) (p : Fin 512) (j : Fin 2048) :
    mulf (matmul dot_S512x1024_S2048x1024_S512x2048_1_1_0_0_n_n none q k (constant (F := Ideal) S512x2048 .f32 0x00000000#32))
        (broadcast S512x2048 (Scalar.ofBits (F := Ideal) .f32 0x3D000000#32)) (ix2 p j)
      = (∑ d : Fin 1024, q (ix2 p d) * k (ix2 j d)) * Ideal.ofBits .f32 0x3D000000#32 := by
  rw [mulf_apply, broadcast_apply]
  exact congrArg (· * Ideal.ofBits .f32 0x3D000000#32) (matmul_qk_apply q k p j)

/-- The exponential of a matrix minus its row suprema, at `(p, j)`. -/
theorem shifted_exp_apply (s : FVec Ideal S512x2048 .f32) (hφ : FKind.Formats .f32)
    (hacc : (0xFF800000#32 : BitVec 32) = FKind.maximumf.neutral .f32 hφ) (p : Fin 512) (j : Fin 2048) :
    exp (subf s (broadcastTo S512x2048 (shapeCast S512x1 (multiReduction .maximumf [1] S512 s 0xFF800000#32
        reduces_S512x2048_S512 hφ hacc) shapeCasts_S512_S512x1) broadcasts_S512x1_S512x2048)) (ix2 p j)
      = Ideal.exp (s (ix2 p j) - Finset.univ.sup fun j' : Fin 2048 => s (ix2 p j')) := by
  show Ideal.exp (subf s _ (ix2 p j)) = _
  rw [subf_apply, column_apply, rowMax_apply]

/-- A matrix divided by its row sums, at `(p, j)`. -/
theorem normalized_apply (E : FVec Ideal S512x2048 .f32) (hφ : FKind.Formats .f32)
    (hacc : (0x00000000#32 : BitVec 32) = FKind.add.neutral .f32 hφ) (p : Fin 512) (j : Fin 2048) :
    divf E (broadcastTo S512x2048 (shapeCast S512x1 (multiReduction .add [1] S512 E 0x00000000#32
        reduces_S512x2048_S512 hφ hacc) shapeCasts_S512_S512x1) broadcasts_S512x1_S512x2048) (ix2 p j)
      = Ideal.div (E (ix2 p j)) (∑ j' : Fin 2048, E (ix2 p j')) := by
  rw [divf_apply, column_apply, rowSum_apply]

/-- The softmax of a score matrix along its rows, at `(p, j)`: the weight of entry `j` of row `p`. -/
theorem softmax_apply (s : FVec Ideal S512x2048 .f32) (hφ : FKind.Formats .f32)
    (hmax : (0xFF800000#32 : BitVec 32) = FKind.maximumf.neutral .f32 hφ)
    (hadd : (0x00000000#32 : BitVec 32) = FKind.add.neutral .f32 hφ) (p : Fin 512) (j : Fin 2048) :
    divf
        (exp (subf s (broadcastTo S512x2048 (shapeCast S512x1 (multiReduction .maximumf [1] S512 s 0xFF800000#32
          reduces_S512x2048_S512 hφ hmax) shapeCasts_S512_S512x1) broadcasts_S512x1_S512x2048)))
        (broadcastTo S512x2048 (shapeCast S512x1 (multiReduction .add [1] S512
          (exp (subf s (broadcastTo S512x2048 (shapeCast S512x1 (multiReduction .maximumf [1] S512 s 0xFF800000#32
            reduces_S512x2048_S512 hφ hmax) shapeCasts_S512_S512x1) broadcasts_S512x1_S512x2048)))
          0x00000000#32 reduces_S512x2048_S512 hφ hadd) shapeCasts_S512_S512x1) broadcasts_S512x1_S512x2048) (ix2 p j)
      = Cert.Attention.weight (fun j' : Fin 2048 => s (ix2 p j')) j := by
  refine (normalized_apply _ hφ hadd p j).trans ?_
  unfold Cert.Attention.weight
  refine congrArg₂ Ideal.div (shifted_exp_apply s hφ hmax p j) ?_
  exact Finset.sum_congr rfl fun j' _ => shifted_exp_apply s hφ hmax p j'

/-- Entry (r, e) of the attention body's stored block: the softmax weights of query row r's scaled scores against the 2048 key rows, applied to the value rows. -/
theorem pay_attn (q : Vec Ideal S1x512x1024 .bf16) (k v : Vec Ideal S1x2048x1024 .bf16) (r : Fin 512) (e : Fin 1024) :
    k1_pay1 (F := Ideal) q k v (ix3 (0 : Fin 1) r e)
      = ∑ j : Fin 2048, Cert.Attention.weight (fun j' : Fin 2048 => (∑ d : Fin 1024, q (ix3 (0 : Fin 1) r d) * k (ix3 (0 : Fin 1) j' d)) * Ideal.ofBits .f32 0x3D000000#32) j * v (ix3 (0 : Fin 1) j e) := by
  unfold k1_pay1
  -- the stored block is the 512 × 1024 product under a leading unit axis
  refine (shapeCast_ab_1ab_apply _ _ (0 : Fin 1) r e).trans ?_
  refine (matmul_pv_apply _ _ r e).trans ?_
  refine Finset.sum_congr rfl fun j _ => ?_
  -- the right factor is the value block without its unit axis; the left is the softmax row of the scaled scores
  refine congrArg₂ (· * ·) ?_ (shapeCast_1ab_ab_apply _ _ j e)
  rw [truncf_apply]
  refine (softmax_apply _ _ _ _ r j).trans ?_
  refine congrArg (fun S => Cert.Attention.weight S j) (funext fun j' => ?_)
  -- the scaled scores of row r, their operands the query and key blocks without their unit axes
  refine (scores_apply _ _ r j').trans ?_
  refine congrArg (· * Ideal.ofBits .f32 0x3D000000#32) (Finset.sum_congr rfl fun d _ => ?_)
  rw [shapeCast_1ab_ab_apply, shapeCast_1ab_ab_apply]

end Cert.PayValue

end
-- ==== Proof.ProjArray.lean ====
/-
  The projection call's result array, whole, and what the host operations before the calls leave in its operands.

  The call walks a 4 × 4 grid. At point t it stages rows 512·(t mod 4) … 512·(t mod 4) + 511 of batch entry t / 4
  of the activations, the whole of the concatenated weights and the whole of the concatenated bias, and writes back
  the 512 × 3072 block of the result at the same batch entry and rows. Entry (r, e) of the block it writes is the
  inner product of row r of the staged activations with column e of the weights, plus the bias at e. The rows it
  reads are the rows it writes, and the weights and the bias are read whole, so block t of the result is block t of
  ONE function of the three arrays: at (b, s, e), (Σ_d x[b,s,d] · w[d,e]) + β[e]. The sixteen blocks tile the result
  (row s of batch entry b lies in the block of point 4·b + s / 512) and every point writes its block back, so after
  the call the result array is that function of the arrays the call was entered with.

  Before the calls three host operations lay the three 1024 × 1024 weight matrices side by side along the columns,
  change the format of the 1024 × 3072 matrix (the identity over the extended reals), and lay the three biases end
  to end. So column 1024·n + e of the concatenated weights is column e of the n-th matrix, entry 1024·n + e of the
  concatenated bias is entry e of the n-th bias, and the activations are as they were.
-/
import proofs.«179508_j88218628260008_2_alg».proof.Proof.FrameProj
import proofs.«179508_j88218628260008_2_alg».proof.Proof.PayValue
import Idealize.ShloMosaic.Lib.Pipeline.Value
import Idealize.ShloMosaic.Lib.StableHlo.Run
import Idealize.ShloMosaic.Lib.ValueIdx

noncomputable section

namespace Cert.ProjArray

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

/-! ## From the blocks to the whole result array -/

section Blocks

variable (V : (c : Dev nD) → (b : Ref sig .tc) → Buf (Elt Ideal) ((c : Thread nD τ).loc b))

/-- Three zero offsets, as a constant function. -/
theorem hz3 : (![0, 0, 0] : Fin 3 → Nat) = fun _ => 0 := funext fun a => by fin_cases a <;> rfl
/-- Two zero offsets, as a constant function. -/
theorem hz2 : (![0, 0] : Fin 2 → Nat) = fun _ => 0 := funext fun a => by fin_cases a <;> rfl
/-- One zero offset, as a constant function. -/
theorem hz1 : (![0] : Fin 1 → Nat) = fun _ => 0 := funext fun a => by fin_cases a <;> rfl

/-- The projected array as one function of the activations, the weights and the bias. -/
def projArr (x : S4x2048x1024.Idx → EReal) (w : S1024x3072.Idx → EReal) (β : S3072.Idx → EReal) :
    S4x2048x3072.Idx → EReal :=
  fun i => (∑ d : Fin 1024, x (ix3 (i 0) (i 1) d) * w (ix2 d (i 2))) + β (ix1 (i 2))

/-- The block indices, decided over the sixteen grid points: the activations' and the result's blocks sit at
    (t / 4, t mod 4, 0); the weights' and the bias's block index is always zero. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val / 4 ∧ win0_3.index t (1 : Fin 3) = t.val % 4 ∧ win0_3.index t (2 : Fin 3) = 0 :=
  (by decide +kernel : ∀ t : Fin grid0.N, _)

/-- The stored block at any of its indices y = (0, r, e): row r of the activations block against column e of the
    weights, plus the bias at e. -/
theorem pay_block (v0 : Vec Ideal S1x512x1024 .f32) (v3 : Vec Ideal S1024x3072 .bf16) (v6 : Vec Ideal S3072 .f32)
    (y : S1x512x3072.Idx) :
    k0_pay1 (F := Ideal) v0 v3 v6 y
      = (∑ d : Fin 1024, v0 (ix3 (0 : Fin 1) (y 1) d) * v3 (ix2 d (y 2))) + v6 (ix1 (y 2)) := by
  obtain ⟨u, r, e, rfl⟩ : ∃ (u : Fin 1) (r : Fin 512) (e : Fin 3072), y = ix3 u r e := ⟨y 0, y 1, y 2, eq_ix3 y⟩
  obtain rfl : u = 0 := Subsingleton.elim _ _
  exact Cert.PayValue.pay_proj v0 v3 v6 r e

/-- The activations' block at point t is rows 512·(t mod 4) … of batch entry t / 4. -/
theorem blk_x_apply (c : Dev nD) (t : Fin cfg0.N) (x : S1x512x1024.Idx) (k : S4x2048x1024.Idx)
    (h0 : (k 0).val = t.val / 4) (h1 : (k 1).val = t.val % 4 * 512 + (x 1).val) (h2 : (k 2).val = (x 2).val) :
    (iblk0 V c 0 t : Vec Ideal S1x512x1024 .f32) x = (V c main_arg0 : S4x2048x1024.Idx → EReal) k := by
  obtain ⟨e0, e1, e2, -⟩ := idx_facts t
  unfold iblk0
  rw [View.read_apply]
  show V c main_arg0 _ = V c main_arg0 _
  congr 1
  funext a
  apply Fin.ext
  match a with
  | ⟨0, _⟩ =>
    show win0_0.index t (0 : Fin 3) * 1 + 1 * (x 0).val = (k 0).val
    have hx : (x 0).val < 1 := (x 0).isLt
    rw [e0, h0]; omega
  | ⟨1, _⟩ => show win0_0.index t (1 : Fin 3) * 512 + 1 * (x 1).val = (k 1).val; rw [e1, h1]; omega
  | ⟨2, _⟩ => show win0_0.index t (2 : Fin 3) * 1024 + 1 * (x 2).val = (k 2).val; rw [e2, h2]; omega

/-- The weights' block at every point is the whole matrix. -/
theorem blk_w_apply (c : Dev nD) (t : Fin cfg0.N) (x : S1024x3072.Idx) :
    (iblk0 V c 1 t : Vec Ideal S1024x3072 .bf16) x = (V c main_v1 : S1024x3072.Idx → EReal) x := by
  obtain ⟨-, -, -, e3, e4, -⟩ := idx_facts t
  unfold iblk0
  rw [View.read_apply]
  show V c main_v1 _ = V c main_v1 _
  congr 1
  funext a
  apply Fin.ext
  match a with
  | ⟨0, _⟩ => show win0_1.index t (0 : Fin 2) * 1024 + 1 * (x 0).val = (x 0).val; rw [e3]; omega
  | ⟨1, _⟩ => show win0_1.index t (1 : Fin 2) * 3072 + 1 * (x 1).val = (x 1).val; rw [e4]; omega

/-- The bias's block at every point is the whole vector. -/
theorem blk_b_apply (c : Dev nD) (t : Fin cfg0.N) (x : S3072.Idx) :
    (iblk0 V c 2 t : Vec Ideal S3072 .f32) x = (V c main_v2 : S3072.Idx → EReal) x := by
  obtain ⟨-, -, -, -, -, e5, -⟩ := idx_facts t
  unfold iblk0
  rw [View.read_apply]
  show V c main_v2 _ = V c main_v2 _
  congr 1
  funext a
  apply Fin.ext
  match a with
  | ⟨0, _⟩ => show win0_2.index t (0 : Fin 1) * 3072 + 1 * (x 0).val = (x 0).val; rw [e5]; omega

/-- What point t writes back is block t of the projected array. -/
theorem flushed_eq (c : Dev nD) (t : Fin cfg0.N) :
    (dat0 V c).flushed 3 t
      = ((cfg0.win 3).blk t).view.read (Elt Ideal) (projArr (V c main_arg0) (V c main_v1) (V c main_v2)) := by
  show (cfg0.win 3).cut (grid0.coords t) ((dat0 V c).after 3 t) = _
  rw [after0_3]
  unfold out0_3
  rw [View.canon_unit_zero hz3]
  simp only [View.ld_unit_zero (S := S1x512x1024) hz3, View.ld_unit_zero (S := S1024x3072) hz2,
    View.ld_unit_zero (S := S3072) hz1]
  funext j
  show k0_pay1 (F := Ideal) (iblk0 V c 0 t) (iblk0 V c 1 t) (iblk0 V c 2 t) j
      = projArr (V c main_arg0) (V c main_v1) (V c main_v2) (((cfg0.win 3).blk t).view.emb j)
  refine (pay_block (iblk0 V c 0 t) (iblk0 V c 1 t) (iblk0 V c 2 t) j).trans ?_
  obtain ⟨-, -, -, -, -, -, e6, e7, e8⟩ := idx_facts t
  have i0 : ((((cfg0.win 3).blk t).view.emb j) 0).val = t.val / 4 := by
    show win0_3.index t (0 : Fin 3) * 1 + 1 * (j 0).val = _
    have hj : (j 0).val < 1 := (j 0).isLt
    rw [e6]; omega
  have i1 : ((((cfg0.win 3).blk t).view.emb j) 1).val = t.val % 4 * 512 + (j 1).val := by
    show win0_3.index t (1 : Fin 3) * 512 + 1 * (j 1).val = _
    rw [e7]; omega
  have i2 : ((((cfg0.win 3).blk t).view.emb j) 2).val = (j 2).val := by
    show win0_3.index t (2 : Fin 3) * 3072 + 1 * (j 2).val = _
    rw [e8]; omega
  unfold projArr
  refine congrArg₂ (· + ·) (Finset.sum_congr rfl fun d _ => congrArg₂ (· * ·) ?_ ?_) ?_
  · exact blk_x_apply V c t _ _ i0 i1 rfl
  · refine (blk_w_apply V c t _).trans (congrArg (V c main_v1 : S1024x3072.Idx → EReal) (funext fun a => Fin.ext ?_))
    match a with
    | ⟨0, _⟩ => rfl
    | ⟨1, _⟩ => exact i2.symm
  · refine (blk_b_apply V c t _).trans (congrArg (V c main_v2 : S3072.Idx → EReal) (funext fun a => Fin.ext ?_))
    match a with
    | ⟨0, _⟩ => exact i2.symm

/-- An index of the projected array is in point t's block iff each coordinate is in the block's range on its axis. -/
theorem mem_blk (t : Fin cfg0.N) (i : S4x2048x3072.Idx) :
    i ∈ ((cfg0.win 3).blk t).view.set ↔ ∀ a : Fin 3, win0_3.index t a * S1x512x3072.size a ≤ (i a).val
      ∧ (i a).val < win0_3.index t a * S1x512x3072.size a + S1x512x3072.size a := by
  show i ∈ ((View.whole main_v3).slice (win0_3.rect t)).set ↔ _
  rw [View.set_slice_whole, Rect.mem_set_unit]
  exact Iff.rfl

/-- Every index of the projected array is in some point's block: row s of batch entry b is in the block of point
    4·b + s / 512, and every point writes its block back. -/
theorem cover (i : S4x2048x3072.Idx) :
    ∃ t : Fin cfg0.N, (cfg0.win 3).flush t = true ∧ i ∈ ((cfg0.win 3).blk t).view.set := by
  have hN : grid0.N = 16 := N_0
  have h0 : (i 0).val < 4 := (i 0).isLt
  have h1 : (i 1).val < 2048 := (i 1).isLt
  have h2 : (i 2).val < 3072 := (i 2).isLt
  obtain ⟨t, ht⟩ : ∃ t : Fin cfg0.N, t.val = 4 * (i 0).val + (i 1).val / 512 :=
    ⟨⟨4 * (i 0).val + (i 1).val / 512, by show _ < grid0.N; rw [hN]; omega⟩, rfl⟩
  refine ⟨t, flush0_3 t, ?_⟩
  rw [mem_blk]
  obtain ⟨-, -, -, -, -, -, e6, e7, e8⟩ := idx_facts t
  intro a
  match a with
  | ⟨0, _⟩ =>
    show win0_3.index t (0 : Fin 3) * 1 ≤ (i 0).val ∧ (i 0).val < win0_3.index t (0 : Fin 3) * 1 + 1
    rw [e6]; omega
  | ⟨1, _⟩ =>
    show win0_3.index t (1 : Fin 3) * 512 ≤ (i 1).val ∧ (i 1).val < win0_3.index t (1 : Fin 3) * 512 + 512
    rw [e7]; omega
  | ⟨2, _⟩ =>
    show win0_3.index t (2 : Fin 3) * 3072 ≤ (i 2).val ∧ (i 2).val < win0_3.index t (2 : Fin 3) * 3072 + 3072
    rw [e8]; omega

/-- After the call the result array is the projected array. -/
theorem final (c : Dev nD) :
    (dat0 V c).arrAt 3 cfg0.N = projArr (V c main_arg0) (V c main_v1) (V c main_v2) :=
  (dat0 V c).arrAt_eq_of_cover 3 (projArr (V c main_arg0) (V c main_v1) (V c main_v2))
    (fun t _ => flushed_eq V c t) cover

/-- The projection call's result array, entry by entry: row (b, s) of the activations against column e of the
    concatenated weights, plus the concatenated bias at e. -/
theorem proj_array (c : Dev nD) (b : Fin 4) (s : Fin 2048) (e : Fin 3072) :
    ((dat0 (F := Ideal) V c).arrAt 3 cfg0.N : S4x2048x3072.Idx → EReal) (ix3 b s e)
      = (∑ d : Fin 1024, (by exact V c main_arg0 : S4x2048x1024.Idx → EReal) (ix3 b s d)
            * (by exact V c main_v1 : S1024x3072.Idx → EReal) (ix2 d e))
          + (by exact V c main_v2 : S3072.Idx → EReal) (ix1 e) := by
  rw [final]
  rfl

end Blocks

/-! ## What the host operations before the calls write -/

/-- After the three host operations the second call operand holds the three weight matrices side by side along
    the columns (the change of format is the identity over the extended reals). -/
theorem host_v1 (W : Valuation τ sig (Elt Ideal)) :
    (StableHlo.after (hostOps0 (F := Ideal)) W (Proc.devRef .tc main_v1) : S1024x3072.Idx → EReal)
      = truncf (F := Ideal) .bf16 (concatenate S1024x3072 1 [⟨S1024x1024, W (Proc.devRef .tc main_arg1)⟩,
          ⟨S1024x1024, W (Proc.devRef .tc main_arg3)⟩, ⟨S1024x1024, W (Proc.devRef .tc main_arg5)⟩]
          concatenates_S1024x1024_S1024x1024_S1024x1024_S1024x3072_d1) bitsLt_bf16_f32 := by
  dsimp only [hostOps0]
  after_results
  rfl

/-- After the three host operations the third call operand holds the three biases end to end. -/
theorem host_v2 (W : Valuation τ sig (Elt Ideal)) :
    (StableHlo.after (hostOps0 (F := Ideal)) W (Proc.devRef .tc main_v2) : S3072.Idx → EReal)
      = concatenate S3072 0 [⟨S1024, W (Proc.devRef .tc main_arg2)⟩, ⟨S1024, W (Proc.devRef .tc main_arg4)⟩,
          ⟨S1024, W (Proc.devRef .tc main_arg6)⟩] concatenates_S1024_S1024_S1024_S3072_d0 := by
  dsimp only [hostOps0]
  after_results
  dsimp only
  repeat (first
    | (rw [StableHlo.unary_result_ne]; rotate_left; decide)
    | (rw [StableHlo.nary_result_ne]; rotate_left; decide))
  rfl

/-- Columns 0 … 1023 of the concatenated weights are the first weight matrix. -/
theorem host_weights_0 (W : Valuation τ sig (Elt Ideal)) (d e : Fin 1024) :
    (StableHlo.after (hostOps0 (F := Ideal)) W (Proc.devRef .tc main_v1) : S1024x3072.Idx → EReal)
        (ix2 d ⟨e.val, by omega⟩)
      = (W (Proc.devRef .tc main_arg1) : S1024x1024.Idx → EReal) (ix2 d e) := by
  rw [host_v1, truncf_apply]
  refine concatenate_apply_piece (t := S1024x3072) (1 : Fin 2) _ _ _ 0 ?_ S1024x1024 (W (Proc.devRef .tc main_arg1)) ?_ rfl
    0 ?_ (ix2 d e) (fun b hb => ?_) ?_
  · show (0 : Nat) < 3; omega
  · rfl
  · rfl
  · match b with
    | ⟨0, _⟩ => rfl
    | ⟨1, _⟩ => exact absurd rfl hb
  · show 0 + e.val = e.val; omega

/-- Columns 1024 … 2047 of the concatenated weights are the second weight matrix. -/
theorem host_weights_1 (W : Valuation τ sig (Elt Ideal)) (d e : Fin 1024) :
    (StableHlo.after (hostOps0 (F := Ideal)) W (Proc.devRef .tc main_v1) : S1024x3072.Idx → EReal)
        (ix2 d ⟨1024 + e.val, by omega⟩)
      = (W (Proc.devRef .tc main_arg3) : S1024x1024.Idx → EReal) (ix2 d e) := by
  rw [host_v1, truncf_apply]
  refine concatenate_apply_piece (t := S1024x3072) (1 : Fin 2) _ _ _ 1 ?_ S1024x1024 (W (Proc.devRef .tc main_arg3)) ?_ rfl
    1024 ?_ (ix2 d e) (fun b hb => ?_) ?_
  · show (1 : Nat) < 3; omega
  · rfl
  · rfl
  · match b with
    | ⟨0, _⟩ => rfl
    | ⟨1, _⟩ => exact absurd rfl hb
  · show 1024 + e.val = 1024 + e.val; omega

/-- Columns 2048 … 3071 of the concatenated weights are the third weight matrix. -/
theorem host_weights_2 (W : Valuation τ sig (Elt Ideal)) (d e : Fin 1024) :
    (StableHlo.after (hostOps0 (F := Ideal)) W (Proc.devRef .tc main_v1) : S1024x3072.Idx → EReal)
        (ix2 d ⟨2048 + e.val, by omega⟩)
      = (W (Proc.devRef .tc main_arg5) : S1024x1024.Idx → EReal) (ix2 d e) := by
  rw [host_v1, truncf_apply]
  refine concatenate_apply_piece (t := S1024x3072) (1 : Fin 2) _ _ _ 2 ?_ S1024x1024 (W (Proc.devRef .tc main_arg5)) ?_ rfl
    2048 ?_ (ix2 d e) (fun b hb => ?_) ?_
  · show (2 : Nat) < 3; omega
  · rfl
  · rfl
  · match b with
    | ⟨0, _⟩ => rfl
    | ⟨1, _⟩ => exact absurd rfl hb
  · show 2048 + e.val = 2048 + e.val; omega

/-- Entries 0 … 1023 of the concatenated bias are the first bias. -/
theorem host_bias_0 (W : Valuation τ sig (Elt Ideal)) (e : Fin 1024) :
    (StableHlo.after (hostOps0 (F := Ideal)) W (Proc.devRef .tc main_v2) : S3072.Idx → EReal)
        (ix1 ⟨e.val, by omega⟩)
      = (W (Proc.devRef .tc main_arg2) : S1024.Idx → EReal) (ix1 e) := by
  rw [host_v2]
  refine concatenate_apply_piece (t := S3072) (0 : Fin 1) _ _ _ 0 ?_ S1024 (W (Proc.devRef .tc main_arg2)) ?_ rfl
    0 ?_ (ix1 e) (fun b hb => ?_) ?_
  · show (0 : Nat) < 3; omega
  · rfl
  · rfl
  · match b with
    | ⟨0, _⟩ => exact absurd rfl hb
  · show 0 + e.val = e.val; omega

/-- Entries 1024 … 2047 of the concatenated bias are the second bias. -/
theorem host_bias_1 (W : Valuation τ sig (Elt Ideal)) (e : Fin 1024) :
    (StableHlo.after (hostOps0 (F := Ideal)) W (Proc.devRef .tc main_v2) : S3072.Idx → EReal)
        (ix1 ⟨1024 + e.val, by omega⟩)
      = (W (Proc.devRef .tc main_arg4) : S1024.Idx → EReal) (ix1 e) := by
  rw [host_v2]
  refine concatenate_apply_piece (t := S3072) (0 : Fin 1) _ _ _ 1 ?_ S1024 (W (Proc.devRef .tc main_arg4)) ?_ rfl
    1024 ?_ (ix1 e) (fun b hb => ?_) ?_
  · show (1 : Nat) < 3; omega
  · rfl
  · rfl
  · match b with
    | ⟨0, _⟩ => exact absurd rfl hb
  · show 1024 + e.val = 1024 + e.val; omega

/-- Entries 2048 … 3071 of the concatenated bias are the third bias. -/
theorem host_bias_2 (W : Valuation τ sig (Elt Ideal)) (e : Fin 1024) :
    (StableHlo.after (hostOps0 (F := Ideal)) W (Proc.devRef .tc main_v2) : S3072.Idx → EReal)
        (ix1 ⟨2048 + e.val, by omega⟩)
      = (W (Proc.devRef .tc main_arg6) : S1024.Idx → EReal) (ix1 e) := by
  rw [host_v2]
  refine concatenate_apply_piece (t := S3072) (0 : Fin 1) _ _ _ 2 ?_ S1024 (W (Proc.devRef .tc main_arg6)) ?_ rfl
    2048 ?_ (ix1 e) (fun b hb => ?_) ?_
  · show (2 : Nat) < 3; omega
  · rfl
  · rfl
  · match b with
    | ⟨0, _⟩ => exact absurd rfl hb
  · show 2048 + e.val = 2048 + e.val; omega

/-- No host operation before the calls writes the activations. -/
theorem host_keeps_x (W : Valuation τ sig (Elt Ideal)) :
    StableHlo.after (hostOps0 (F := Ideal)) W (Proc.devRef .tc main_arg0) = W (Proc.devRef .tc main_arg0) :=
  StableHlo.after_of_writes_sub (W := [main_v0, main_v1, main_v2]) (hostOps0 (F := Ideal)) W (by
    simp only [List.Forall, hostOps0, StableHlo.unary_writes, StableHlo.nary_writes, Finset.singleton_subset_iff,
      List.mem_toFinset]
    exact ⟨List.mem_map_of_mem (by decide), List.mem_map_of_mem (by decide), List.mem_map_of_mem (by decide)⟩)
    (by decide)

end Cert.ProjArray

end
-- ==== Proof.AttnArray.lean ====
/-
  The attention call's result array, whole: every entry as one function of the projected array the call is entered with.

  The call walks a 4 × 4 grid. At point (b, i) it reads three blocks of the projected array P (batch entry × position ×
  3072 features: features 0 … 1023 the queries, 1024 … 2047 the keys, 2048 … 3071 the values) — query rows
  512·i … 512·i + 511 of batch entry b, all 2048 key rows of b and all 2048 value rows of b — and writes back rows
  512·i … 512·i + 511 of batch entry b of the result. An element of a block sits in its array, on each axis, at the block's
  index times the block's size plus its own coordinate; the four index maps are decided once over the 16 points. So the
  block a point writes back is the matching block of ONE function of P,
      (b, q, e) ↦ Σ_j weight(S_{b,q}) j · P[b, j, 2048 + e],   S_{b,q} j' = (Σ_d P[b, q, d] · P[b, j', 1024 + d]) · c,
  the sixteen blocks tile the result array (row q of entry b lies in the block of point (b, q / 512)), and the array ends
  holding that function.
-/
import proofs.«179508_j88218628260008_2_alg».proof.Proof.FrameAttn
import proofs.«179508_j88218628260008_2_alg».proof.Proof.PayValue
import Idealize.ShloMosaic.Lib.Pipeline.Value
import Idealize.ShloMosaic.Lib.ValueIdx

noncomputable section

namespace Cert.AttnArray

open Cert.KernelIdeal Cert.KernelIdeal.Gen Cert.KernelIdeal.Hand Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The projected array the call is entered with, on core `c`: batch entry × position × 3072 features. -/
abbrev projArr (c : Dev nD) : S4x2048x3072.Idx → EReal := V c main_v3

/-! ## The index maps over the grid -/

/-- The printed index maps, decided over the 16 grid points: the query block moves with the output block on the batch and
    row axes and stays at feature block 0; the key and value blocks move with it on the batch axis only, stay at row block 0
    and sit at feature blocks 1 and 2; the output's block indices stay below 4 on the batch and row axes and at 0 on the
    feature axis. -/
theorem idx_facts : ∀ t : Fin cfg1.N,
    win1_0.index t (0 : Fin 3) = win1_3.index t (0 : Fin 3) ∧ win1_0.index t (1 : Fin 3) = win1_3.index t (1 : Fin 3)
      ∧ win1_0.index t (2 : Fin 3) = 0
    ∧ win1_1.index t (0 : Fin 3) = win1_3.index t (0 : Fin 3) ∧ win1_1.index t (1 : Fin 3) = 0 ∧ win1_1.index t (2 : Fin 3) = 1
    ∧ win1_2.index t (0 : Fin 3) = win1_3.index t (0 : Fin 3) ∧ win1_2.index t (1 : Fin 3) = 0 ∧ win1_2.index t (2 : Fin 3) = 2
    ∧ win1_3.index t (0 : Fin 3) ≤ 3 ∧ win1_3.index t (1 : Fin 3) ≤ 3 ∧ win1_3.index t (2 : Fin 3) = 0 :=
  (by decide +kernel : ∀ t : Fin grid1.N, _)

/-- Every (batch entry, row block) pair is SOME point's output block. -/
theorem idx_onto : ∀ (b : Fin 4) (i : Fin 4), ∃ t : Fin cfg1.N, win1_3.index t = ![b.val, i.val, 0] :=
  (by decide +kernel : ∀ (b : Fin 4) (i : Fin 4), ∃ t : Fin grid1.N, win1_3.index t = ![b.val, i.val, 0])

/-! ## The three input blocks at a point, as entries of the projected array

Each is stated against the OUTPUT block's index at the point (batch entry `index 0`, row block `index 1`), at an array index
`k` given by its coordinates. -/

/-- Row `r`, feature `d` of the query block: row `512 · (row block) + r` of the batch entry, query feature `d`. -/
theorem qblk_apply (c : Dev nD) (t : Fin cfg1.N) (r : Fin 512) (d : Fin 1024) (k : S4x2048x3072.Idx)
    (h0 : (k 0).val = win1_3.index t (0 : Fin 3)) (h1 : (k 1).val = win1_3.index t (1 : Fin 3) * 512 + r.val) (h2 : (k 2).val = d.val) :
    (iblk1 V c 0 t : Vec Ideal S1x512x1024 .bf16) (ix3 (0 : Fin 1) r d) = projArr V c k := by
  obtain ⟨e0, e1, e2, -⟩ := idx_facts t
  unfold iblk1
  rw [View.read_apply]
  show projArr V c _ = _
  congr 1
  funext a
  apply Fin.ext
  match a with
  | ⟨0, _⟩ => show win1_0.index t (0 : Fin 3) * 1 + 1 * 0 = (k 0).val; omega
  | ⟨1, _⟩ => show win1_0.index t (1 : Fin 3) * 512 + 1 * r.val = (k 1).val; omega
  | ⟨2, _⟩ => show win1_0.index t (2 : Fin 3) * 1024 + 1 * d.val = (k 2).val; omega

/-- Row `j`, feature `d` of the key block: row `j` of the batch entry, key feature `1024 + d`. -/
theorem kblk_apply (c : Dev nD) (t : Fin cfg1.N) (j : Fin 2048) (d : Fin 1024) (k : S4x2048x3072.Idx)
    (h0 : (k 0).val = win1_3.index t (0 : Fin 3)) (h1 : (k 1).val = j.val) (h2 : (k 2).val = 1024 + d.val) :
    (iblk1 V c 1 t : Vec Ideal S1x2048x1024 .bf16) (ix3 (0 : Fin 1) j d) = projArr V c k := by
  obtain ⟨-, -, -, e0, e1, e2, -⟩ := idx_facts t
  unfold iblk1
  rw [View.read_apply]
  show projArr V c _ = _
  congr 1
  funext a
  apply Fin.ext
  match a with
  | ⟨0, _⟩ => show win1_1.index t (0 : Fin 3) * 1 + 1 * 0 = (k 0).val; omega
  | ⟨1, _⟩ => show win1_1.index t (1 : Fin 3) * 2048 + 1 * j.val = (k 1).val; omega
  | ⟨2, _⟩ => show win1_1.index t (2 : Fin 3) * 1024 + 1 * d.val = (k 2).val; omega

/-- Row `j`, feature `e` of the value block: row `j` of the batch entry, value feature `2048 + e`. -/
theorem vblk_apply (c : Dev nD) (t : Fin cfg1.N) (j : Fin 2048) (e : Fin 1024) (k : S4x2048x3072.Idx)
    (h0 : (k 0).val = win1_3.index t (0 : Fin 3)) (h1 : (k 1).val = j.val) (h2 : (k 2).val = 2048 + e.val) :
    (iblk1 V c 2 t : Vec Ideal S1x2048x1024 .bf16) (ix3 (0 : Fin 1) j e) = projArr V c k := by
  obtain ⟨-, -, -, -, -, -, e0, e1, e2, -⟩ := idx_facts t
  unfold iblk1
  rw [View.read_apply]
  show projArr V c _ = _
  congr 1
  funext a
  apply Fin.ext
  match a with
  | ⟨0, _⟩ => show win1_2.index t (0 : Fin 3) * 1 + 1 * 0 = (k 0).val; omega
  | ⟨1, _⟩ => show win1_2.index t (1 : Fin 3) * 2048 + 1 * j.val = (k 1).val; omega
  | ⟨2, _⟩ => show win1_2.index t (2 : Fin 3) * 1024 + 1 * e.val = (k 2).val; omega

/-! ## The whole-array function, and one stored block of it -/

/-- Attention read off a projected array `P` at batch entry `b`, query row `q`, feature `e`: the softmax weights of
    row `q`'s scaled scores against the 2048 key rows of `b`, applied to the value rows of `b`. -/
def attnAt (P : S4x2048x3072.Idx → EReal) (b : Fin 4) (q : Fin 2048) (e : Fin 1024) : EReal :=
  ∑ j : Fin 2048, Cert.Attention.weight (fun j' : Fin 2048 =>
      (∑ d : Fin 1024, P (ix3 b q ⟨d.val, by omega⟩) * P (ix3 b j' ⟨1024 + d.val, by omega⟩)) * Ideal.ofBits .f32 0x3D000000#32) j
    * P (ix3 b j ⟨2048 + e.val, by omega⟩)

/-- The same as a function of the result array's index. -/
def attnOf (P : S4x2048x3072.Idx → EReal) : S4x2048x1024.Idx → EReal := fun i => attnAt P (i 0) (i 1) (i 2)

/-- The body's arithmetic on three blocks that ARE the query row `q`, the key rows and the value rows of batch entry `b`
    of `P` gives, at row `r` (the block's row holding `q`) and feature `e`, attention at `(b, q, e)`. -/
theorem block_eq (P : S4x2048x3072.Idx → EReal) (x0 : Vec Ideal S1x512x1024 .bf16) (x1 x2 : Vec Ideal S1x2048x1024 .bf16)
    (b : Fin 4) (q : Fin 2048) (r : Fin 512) (e : Fin 1024)
    (h0 : ∀ d : Fin 1024, x0 (ix3 (0 : Fin 1) r d) = P (ix3 b q ⟨d.val, by omega⟩))
    (h1 : ∀ (j : Fin 2048) (d : Fin 1024), x1 (ix3 (0 : Fin 1) j d) = P (ix3 b j ⟨1024 + d.val, by omega⟩))
    (h2 : ∀ j : Fin 2048, x2 (ix3 (0 : Fin 1) j e) = P (ix3 b j ⟨2048 + e.val, by omega⟩)) :
    k1_pay1 (F := Ideal) x0 x1 x2 (ix3 (0 : Fin 1) r e) = attnAt P b q e := by
  refine (Cert.PayValue.pay_attn x0 x1 x2 r e).trans ?_
  unfold attnAt
  refine Finset.sum_congr rfl fun j _ => ?_
  refine congrArg₂ (· * ·) ?_ (h2 j)
  refine congrArg (fun S => Cert.Attention.weight S j) (funext fun j' => ?_)
  refine congrArg (· * Ideal.ofBits .f32 0x3D000000#32) (Finset.sum_congr rfl fun d _ => ?_)
  rw [h0 d, h1 j' d]

/-! ## From the blocks to the array -/

theorem hz : (![0, 0, 0] : Fin 3 → Nat) = fun _ => 0 := funext fun a => by fin_cases a <;> rfl

/-- WHAT POINT `t` WRITES BACK is block `t` of attention over the projected array: the body stores its arithmetic on the
    three staged blocks whole, and element `(0, r, e)` of the output block sits at batch entry `index 0`, row
    `index 1 · 512 + r`, feature `e` of the result. -/
theorem flushed_eq (c : Dev nD) (t : Fin cfg1.N) :
    (dat1 (F := Ideal) V c).flushed 3 t
      = ((cfg1.win 3).blk t).view.read (Elt Ideal) (attnOf (projArr V c)) := by
  show (cfg1.win 3).cut (grid1.coords t) ((dat1 (F := Ideal) V c).after 3 t) = _
  rw [after1_3]
  unfold out1_3
  rw [View.canon_unit_zero hz]
  simp only [View.ld_unit_zero (S := S1x512x1024) hz, View.ld_unit_zero (S := S1x2048x1024) hz]
  obtain ⟨-, -, -, -, -, -, -, -, -, l0, l1, z2⟩ := idx_facts t
  funext y
  obtain ⟨u, r, e, rfl⟩ : ∃ (u : Fin 1) (r : Fin 512) (e : Fin 1024), y = ix3 u r e := ⟨y 0, y 1, y 2, eq_ix3 y⟩
  obtain rfl : u = 0 := Subsingleton.elim _ _
  have hemb : ((cfg1.win 3).blk t).view.emb (ix3 (0 : Fin 1) r e)
      = (ix3 (⟨win1_3.index t (0 : Fin 3), by omega⟩ : Fin 4) (⟨win1_3.index t (1 : Fin 3) * 512 + r.val, by omega⟩ : Fin 2048) e : S4x2048x1024.Idx) := by
    funext a
    apply Fin.ext
    match a with
    | ⟨0, _⟩ => show win1_3.index t (0 : Fin 3) * 1 + 1 * 0 = win1_3.index t (0 : Fin 3); omega
    | ⟨1, _⟩ => show win1_3.index t (1 : Fin 3) * 512 + 1 * r.val = win1_3.index t (1 : Fin 3) * 512 + r.val; omega
    | ⟨2, _⟩ => show win1_3.index t (2 : Fin 3) * 1024 + 1 * e.val = e.val; omega
  show k1_pay1 (F := Ideal) (iblk1 V c 0 t) (iblk1 V c 1 t) (iblk1 V c 2 t) (ix3 (0 : Fin 1) r e)
    = attnOf (projArr V c) (((cfg1.win 3).blk t).view.emb (ix3 (0 : Fin 1) r e))
  rw [hemb]
  exact block_eq (projArr V c) (iblk1 V c 0 t) (iblk1 V c 1 t) (iblk1 V c 2 t)
    ⟨win1_3.index t (0 : Fin 3), by omega⟩ ⟨win1_3.index t (1 : Fin 3) * 512 + r.val, by omega⟩ r e
    (fun d => qblk_apply V c t r d _ rfl rfl rfl)
    (fun j d => kblk_apply V c t j d _ rfl rfl rfl)
    (fun j => vblk_apply V c t j e _ rfl rfl rfl)

/-- An index of the result array is in point `t`'s block iff each coordinate is in the block's range on its axis. -/
theorem mem_blk (t : Fin cfg1.N) (i : S4x2048x1024.Idx) :
    i ∈ ((cfg1.win 3).blk t).view.set
      ↔ ∀ a : Fin 3, win1_3.index t a * S1x512x1024.size a ≤ (i a).val ∧ (i a).val < win1_3.index t a * S1x512x1024.size a + S1x512x1024.size a := by
  show i ∈ ((View.whole main_v4).slice (win1_3.rect t)).set ↔ _
  rw [View.set_slice_whole, Rect.mem_set_unit]
  exact Iff.rfl

/-- The sixteen output blocks cover the result array: row `s` of batch entry `b` is in the block of the point whose
    output block index is `(b, s / 512, 0)`, and every point writes back. -/
theorem covered (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- THE RESULT ARRAY after the call: attention over the projected array, everywhere. -/
theorem final (c : Dev nD) : (dat1 (F := Ideal) V c).arrAt 3 cfg1.N = attnOf (projArr V c) :=
  (dat1 (F := Ideal) V c).arrAt_eq_of_cover 3 (attnOf (projArr V c)) (fun t _ => flushed_eq V c t) covered

/-- The attention call's result array at batch entry `b`, query row `q`, feature `e`, with `P` the projected array the
    call is entered with (features 0 … 1023 the queries, 1024 … 2047 the keys, 2048 … 3071 the values). -/
theorem attn_array (c : Dev nD) (b : Fin 4) (q : Fin 2048) (e : Fin 1024) :
    ((dat1 (F := Ideal) V c).arrAt 3 cfg1.N : S4x2048x1024.Idx → EReal) (ix3 b q e)
      = ∑ j : Fin 2048, Cert.Attention.weight (fun j' : Fin 2048 =>
            (∑ d : Fin 1024, projArr V c (ix3 b q ⟨d.val, by omega⟩) * projArr V c (ix3 b j' ⟨1024 + d.val, by omega⟩))
              * Ideal.ofBits .f32 0x3D000000#32) j
          * projArr V c (ix3 b j ⟨2048 + e.val, by omega⟩) := by
  rw [final V c]
  rfl

end Cert.AttnArray

end
-- ==== Proof.KernelValue.lean ====
/-
  The kernel's result array is attention of the launch arguments.

  The attention call leaves, at (b, q, e), the softmax-weighted sum over the key positions of the projected array's value
  features, the weights from the scaled inner products of its query and key features (the call's write-backs read as one
  whole-array function). The projected array it was entered with is what the projection call left: at (b, s, e') the
  inner product of activations row (b, s) with column e' of the concatenated weights, plus the concatenated bias at e'.
  The host stretch before the calls wrote those two: columns 0 … 1023 are the query weights' and bias's, 1024 … 2047 the
  key ones, 2048 … 3071 the value ones, and it left the activations alone. So the projected array's three column ranges
  are the three projections of the specification, and the result is `attn` of the seven launch arrays with the scale
  the attention body multiplies by.
-/
import proofs.«179508_j88218628260008_2_alg».proof.Proof.Spec
import proofs.«179508_j88218628260008_2_alg».proof.Proof.FrameRun
import proofs.«179508_j88218628260008_2_alg».proof.Proof.ProjArray
import proofs.«179508_j88218628260008_2_alg».proof.Proof.AttnArray

noncomputable section

namespace Cert.KernelValue

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ) (ρ : Dev nD → PrngReg)

/-- The projected array the attention call is entered with, at (b, s, e'): the projection call's write-backs over what
    the host stretch left. -/
theorem entered_at (c : Dev nD) (b : Fin 4) (s : Fin 2048) (e : Fin 3072) :
    Cert.AttnArray.projArr (V2 m ρ) c (ix3 b s e)
      = Cert.ProjArray.projArr (V1 m ρ c main_arg0) (V1 m ρ c main_v1) (V1 m ρ c main_v2) (ix3 b s e) :=
  (congrFun (W2_arr m ρ c 3) (ix3 b s e)).trans (congrFun (Cert.ProjArray.final (V1 m ρ) c) (ix3 b s e))

/-- Its query features are the query projection. -/
theorem entered_q (c : Dev nD) (b : Fin 4) (s : Fin 2048) (d : Fin 1024) :
    Cert.AttnArray.projArr (V2 m ρ) c (ix3 b s ⟨d.val, by omega⟩)
      = Cert.Attention.proj (m ((c.tc : Thread nD τ).loc main_arg0)) (m ((c.tc : Thread nD τ).loc main_arg1)) (m ((c.tc : Thread nD τ).loc main_arg2)) b s d := by
  refine (entered_at m ρ c b s _).trans ?_
  unfold Cert.Attention.proj
  refine congrArg₂ (· + ·) (Finset.sum_congr rfl fun d' _ => congrArg₂ (· * ·) ?_ ?_) ?_
  · exact congrFun (Cert.ProjArray.host_keeps_x (W0 m ρ c)) _
  · exact Cert.ProjArray.host_weights_0 (W0 m ρ c) d' d
  · exact Cert.ProjArray.host_bias_0 (W0 m ρ c) d

/-- Its key features are the key projection. -/
theorem entered_k (c : Dev nD) (b : Fin 4) (s : Fin 2048) (d : Fin 1024) :
    Cert.AttnArray.projArr (V2 m ρ) c (ix3 b s ⟨1024 + d.val, by omega⟩)
      = Cert.Attention.proj (m ((c.tc : Thread nD τ).loc main_arg0)) (m ((c.tc : Thread nD τ).loc main_arg3)) (m ((c.tc : Thread nD τ).loc main_arg4)) b s d := by
  refine (entered_at m ρ c b s _).trans ?_
  unfold Cert.Attention.proj
  refine congrArg₂ (· + ·) (Finset.sum_congr rfl fun d' _ => congrArg₂ (· * ·) ?_ ?_) ?_
  · exact congrFun (Cert.ProjArray.host_keeps_x (W0 m ρ c)) _
  · exact Cert.ProjArray.host_weights_1 (W0 m ρ c) d' d
  · exact Cert.ProjArray.host_bias_1 (W0 m ρ c) d

/-- Its value features are the value projection. -/
theorem entered_v (c : Dev nD) (b : Fin 4) (s : Fin 2048) (e : Fin 1024) :
    Cert.AttnArray.projArr (V2 m ρ) c (ix3 b s ⟨2048 + e.val, by omega⟩)
      = Cert.Attention.proj (m ((c.tc : Thread nD τ).loc main_arg0)) (m ((c.tc : Thread nD τ).loc main_arg5)) (m ((c.tc : Thread nD τ).loc main_arg6)) b s e := by
  refine (entered_at m ρ c b s _).trans ?_
  unfold Cert.Attention.proj
  refine congrArg₂ (· + ·) (Finset.sum_congr rfl fun d' _ => congrArg₂ (· * ·) ?_ ?_) ?_
  · exact congrFun (Cert.ProjArray.host_keeps_x (W0 m ρ c)) _
  · exact Cert.ProjArray.host_weights_2 (W0 m ρ c) d' e
  · exact Cert.ProjArray.host_bias_2 (W0 m ρ c) e

/-- Attention read off the entered projected array is attention of the three projections. -/
theorem attnAt_entered (c : Dev nD) (b : Fin 4) (q : Fin 2048) (e : Fin 1024) :
    Cert.AttnArray.attnAt (Cert.AttnArray.projArr (V2 m ρ) c) b q e
      = Cert.Attention.attend (Cert.Attention.proj (m ((c.tc : Thread nD τ).loc main_arg0)) (m ((c.tc : Thread nD τ).loc main_arg1)) (m ((c.tc : Thread nD τ).loc main_arg2))) (Cert.Attention.proj (m ((c.tc : Thread nD τ).loc main_arg0)) (m ((c.tc : Thread nD τ).loc main_arg3)) (m ((c.tc : Thread nD τ).loc main_arg4))) (Cert.Attention.proj (m ((c.tc : Thread nD τ).loc main_arg0)) (m ((c.tc : Thread nD τ).loc main_arg5)) (m ((c.tc : Thread nD τ).loc main_arg6))) (Ideal.ofBits .f32 0x3D000000#32) b q e := by
  unfold Cert.AttnArray.attnAt Cert.Attention.attend
  refine Finset.sum_congr rfl fun j _ => congrArg₂ (· * ·)
    (congrArg (fun S => Cert.Attention.weight S j) (funext fun j' => ?_)) (entered_v m ρ c b j e)
  unfold Cert.Attention.score
  exact congrArg (· * Ideal.ofBits .f32 0x3D000000#32)
    (Finset.sum_congr rfl fun d _ => congrArg₂ (· * ·) (entered_q m ρ c b q d) (entered_k m ρ c b j' d))

/-- The result array as the attention call leaves it is attention of the launch arguments. -/
theorem kernel_value (c : Dev nD) :
    (dat1 (F := Ideal) (V2 m ρ) c).arrAt 3 cfg1.N
      = Cert.Attention.attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (Ideal.ofBits .f32 0x3D000000#32) := by
  rw [Cert.AttnArray.final (V2 m ρ) c]
  funext i
  obtain ⟨b, q, e, rfl⟩ : ∃ (b : Fin 4) (q : Fin 2048) (e : Fin 1024), i = ix3 b q e := ⟨i 0, i 1, i 2, eq_ix3 i⟩
  exact attnAt_entered m ρ c b q e

end Cert.KernelValue

end
-- ==== Proof.lean ====
/-
  Single-head self-attention: a two-call kernel against its reference, over the extended reals.

  The kernel first projects the activations x by the three weight matrices side by side, one call writing
  qkv = x · [Wq | Wk | Wv] + [bq | bk | bv]; a second call, per tile of 512 query rows, forms the scaled scores against all
  2048 key rows of the batch entry, turns each row into softmax weights relative to the row's maximum, and applies them
  to the value rows. The reference computes the three projections separately, the scores with the scale 1 / √1024, the
  softmax by the same five steps, and the weighted sum of the value rows.

  On the extended reals a change of float format is the identity, 1 / √1024 is the f32 number 2⁻⁵ the kernel multiplies
  by, a maximum-reduction started from -∞ is a supremum whatever the order, and a sum is a sum whatever the tiling; so
  both programs compute ONE function of the seven argument arrays, `Cert.Attention.attn`, index by index. Neither side
  uses distributivity or cancellation: the precondition (finite inputs) is not needed for the equality.

  The three run claims: each kernel program runs as a host stretch and two calls, every unscoped buffer held at known
  contents between them (the second call reads one array through three windows at three shares of it); the reference is
  a straight line of host operations. The idealized kernel is the kernel's own text read over the extended reals: no
  rewrite was applied, and the preservation claim has nothing to state.
-/
import proofs.«179508_j88218628260008_2_alg».proof.Defs
import proofs.«179508_j88218628260008_2_alg».proof.Proof.Gen.Kernel
import proofs.«179508_j88218628260008_2_alg».proof.Proof.Gen.KernelIdeal
import proofs.«179508_j88218628260008_2_alg».proof.Proof.Gen.ReferenceIdeal
import proofs.«179508_j88218628260008_2_alg».proof.Proof.Gen.ReferenceIdeal.Run
import proofs.«179508_j88218628260008_2_alg».proof.Proof.Gen.ReferenceIdeal.Read
import proofs.«179508_j88218628260008_2_alg».proof.Proof.Gen.Pre_finite_inputs
import proofs.«179508_j88218628260008_2_alg».proof.Proof.FrameRun
import proofs.«179508_j88218628260008_2_alg».proof.Proof.KFrameRun
import proofs.«179508_j88218628260008_2_alg».proof.Proof.RefAttn
import proofs.«179508_j88218628260008_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Hand.frame (F := Bits) m ρ

/-- So does the kernel read over the extended reals. -/
theorem frame_ki : Cert.frame_KernelIdeal := fun m ρ _ => Cert.KernelIdeal.Hand.frame (F := Ideal) m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- Both programs end at `attn` of the arguments: the kernel's result array by the two calls' write-backs read as one
    whole-array function, the reference's by its stages read at an index; the arguments agree. -/
theorem algebraic : Cert.algebraic_KernelIdeal_ReferenceIdeal := by
  intro m ρ m' ρ' _ hagree
  refine ⟨fun c => Cert.Attention.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (Ideal.ofBits .f32 0x3D000000#32), ?_, ?_⟩
  · exact (θ_run Cert.KernelIdeal.defs _ _).mono (fun r h c => ⟨(h c).1.trans (Cert.KernelValue.kernel_value m ρ c), (h c).2⟩)
      (Cert.KernelIdeal.Hand.run_result (F := Ideal) m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v28_eq, Cert.RefAttn.ref_eq,
      (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
